-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8x256x32 : Shape := ⟨4, ![128, 8, 256, 32]⟩
abbrev S1x31x31x2 : Shape := ⟨4, ![1, 31, 31, 2]⟩
abbrev S2x512 : Shape := ⟨2, ![2, 512]⟩
abbrev S512 : Shape := ⟨1, ![512]⟩
abbrev S512x8 : Shape := ⟨2, ![512, 8]⟩
abbrev S8x1x1 : Shape := ⟨3, ![8, 1, 1]⟩
abbrev S256x256 : Shape := ⟨2, ![256, 256]⟩
abbrev S64x256x256 : Shape := ⟨3, ![64, 256, 256]⟩
abbrev S_ : Shape := ⟨0, ![]⟩

class Facts : Prop where
  bcast_S_S128x8x256x32 : S_.BroadcastsInDim S128x8x256x32 (![] : Fin 0 → Fin S128x8x256x32.rank)
  reducesTo_S128x8x256x32_S_d0_1_2_3 : S128x8x256x32.ReducesTo [0, 1, 2, 3] S_
  h_S_ : 0 < S_.numel
  bcast_S_S1x31x31x2 : S_.BroadcastsInDim S1x31x31x2 (![] : Fin 0 → Fin S1x31x31x2.rank)
  reducesTo_S1x31x31x2_S_d0_1_2_3 : S1x31x31x2.ReducesTo [0, 1, 2, 3] S_
  bcast_S_S2x512 : S_.BroadcastsInDim S2x512 (![] : Fin 0 → Fin S2x512.rank)
  reducesTo_S2x512_S_d0_1 : S2x512.ReducesTo [0, 1] S_
  bcast_S_S512 : S_.BroadcastsInDim S512 (![] : Fin 0 → Fin S512.rank)
  reducesTo_S512_S_d0 : S512.ReducesTo [0] S_
  bcast_S_S512x8 : S_.BroadcastsInDim S512x8 (![] : Fin 0 → Fin S512x8.rank)
  reducesTo_S512x8_S_d0_1 : S512x8.ReducesTo [0, 1] S_
  bcast_S_S8x1x1 : S_.BroadcastsInDim S8x1x1 (![] : Fin 0 → Fin S8x1x1.rank)
  reducesTo_S8x1x1_S_d0_1_2 : S8x1x1.ReducesTo [0, 1, 2] S_
  bcast_S_S64x256x256 : S_.BroadcastsInDim S64x256x256 (![] : Fin 0 → Fin S64x256x256.rank)
  reducesTo_S64x256x256_S_d0_1_2 : S64x256x256.ReducesTo [0, 1, 2] S_

variable [Facts]

def fn_part2 {F : FTy → Type} [FloatOps F] (main_arg7 : FVec F S8x1x1 .f32) (main_arg9 : FVec F S64x256x256 .f32) (main_v33 : IVec S_ 1) : IVec S_ 1 :=
  let main_v34 : FVec F S8x1x1 .f32 := Host.absf main_arg7
  let main_cst_12 : FVec F S_ .f32 := constant S_ .f32 0x7F800000#32
  let main_v35 : FVec F S8x1x1 .f32 := broadcastInDim S8x1x1 ![] bcast_S_S8x1x1 main_cst_12
  let main_v36 : IVec S8x1x1 1 := cmpf .olt main_v34 main_v35
  let main_c_13 : IVec S_ 1 := constantI S_ 1 1#1
  let main_v37 : IVec S_ 1 := (fun x v => Host.reduce IntOp.andi x v reducesTo_S8x1x1_S_d0_1_2 h_S_) main_v36 main_c_13
  let main_v38 : IVec S_ 1 := andi main_v33 main_v37
  let main_v39 : FVec F S64x256x256 .f32 := Host.absf main_arg9
  let main_cst_14 : FVec F S_ .f32 := constant S_ .f32 0x7F800000#32
  let main_v40 : FVec F S64x256x256 .f32 := broadcastInDim S64x256x256 ![] bcast_S_S64x256x256 main_cst_14
  let main_v41 : IVec S64x256x256 1 := cmpf .olt main_v39 main_v40
  let main_c_15 : IVec S_ 1 := constantI S_ 1 1#1
  let main_v42 : IVec S_ 1 := (fun x v => Host.reduce IntOp.andi x v reducesTo_S64x256x256_S_d0_1_2 h_S_) main_v41 main_c_15
  let main_v43 : IVec S_ 1 := andi main_v38 main_v42
  main_v43

def fn_part1 {F : FTy → Type} [FloatOps F] (main_arg4 : FVec F S2x512 .f32) (main_arg5 : FVec F S512 .f32) (main_arg6 : FVec F S512x8 .f32) (main_arg7 : FVec F S8x1x1 .f32) (main_arg9 : FVec F S64x256x256 .f32) (main_v13 : IVec S_ 1) (main_v16 : IVec S1x31x31x2 1) : IVec S_ 1 :=
  let main_c_5 : IVec S_ 1 := constantI S_ 1 1#1
  let main_v17 : IVec S_ 1 := (fun x v => Host.reduce IntOp.andi x v reducesTo_S1x31x31x2_S_d0_1_2_3 h_S_) main_v16 main_c_5
  let main_v18 : IVec S_ 1 := andi main_v13 main_v17
  let main_v19 : FVec F S2x512 .f32 := Host.absf main_arg4
  let main_cst_6 : FVec F S_ .f32 := constant S_ .f32 0x7F800000#32
  let main_v20 : FVec F S2x512 .f32 := broadcastInDim S2x512 ![] bcast_S_S2x512 main_cst_6
  let main_v21 : IVec S2x512 1 := cmpf .olt main_v19 main_v20
  let main_c_7 : IVec S_ 1 := constantI S_ 1 1#1
  let main_v22 : IVec S_ 1 := (fun x v => Host.reduce IntOp.andi x v reducesTo_S2x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x8 .f32 := Host.absf main_arg6
  let main_cst_10 : FVec F S_ .f32 := constant S_ .f32 0x7F800000#32
  let main_v30 : FVec F S512x8 .f32 := broadcastInDim S512x8 ![] bcast_S_S512x8 main_cst_10
  let main_v31 : IVec S512x8 1 := cmpf .olt main_v29 main_v30
  let main_c_11 : IVec S_ 1 := constantI S_ 1 1#1
  let main_v32 : IVec S_ 1 := (fun x v => Host.reduce IntOp.andi x v reducesTo_S512x8_S_d0_1 h_S_) main_v31 main_c_11
  let main_v33 : IVec S_ 1 := andi main_v28 main_v32
  fn_part2 (F := F) main_arg7 main_arg9 main_v33

def fn {F : FTy → Type} [FloatOps F] (main_arg0 : FVec F S128x8x256x32 .f32) (main_arg1 : FVec F S128x8x256x32 .f32) (main_arg2 : FVec F S128x8x256x32 .f32) (main_arg3 : FVec F S1x31x31x2 .f32) (main_arg4 : FVec F S2x512 .f32) (main_arg5 : FVec F S512 .f32) (main_arg6 : FVec F S512x8 .f32) (main_arg7 : FVec F S8x1x1 .f32) (main_arg8 : IVec S256x256 32) (main_arg9 : FVec F S64x256x256 .f32) : IVec S_ 1 :=
  let main_v0 : FVec F S128x8x256x32 .f32 := Host.absf main_arg0
  let main_cst : FVec F S_ .f32 := constant S_ .f32 0x7F800000#32
  let main_v1 : FVec F S128x8x256x32 .f32 := broadcastInDim S128x8x256x32 ![] bcast_S_S128x8x256x32 main_cst
  let main_v2 : IVec S128x8x256x32 1 := cmpf .olt main_v0 main_v1
  let main_c : IVec S_ 1 := constantI S_ 1 1#1
  let main_v3 : IVec S_ 1 := (fun x v => Host.reduce IntOp.andi x v reducesTo_S128x8x256x32_S_d0_1_2_3 h_S_) main_v2 main_c
  let main_v4 : FVec F S128x8x256x32 .f32 := Host.absf main_arg1
  let main_cst_0 : FVec F S_ .f32 := constant S_ .f32 0x7F800000#32
  let main_v5 : FVec F S128x8x256x32 .f32 := broadcastInDim S128x8x256x32 ![] bcast_S_S128x8x256x32 main_cst_0
  let main_v6 : IVec S128x8x256x32 1 := cmpf .olt main_v4 main_v5
  let main_c_1 : IVec S_ 1 := constantI S_ 1 1#1
  let main_v7 : IVec S_ 1 := (fun x v => Host.reduce IntOp.andi x v reducesTo_S128x8x256x32_S_d0_1_2_3 h_S_) main_v6 main_c_1
  let main_v8 : IVec S_ 1 := andi main_v3 main_v7
  let main_v9 : FVec F S128x8x256x32 .f32 := Host.absf main_arg2
  let main_cst_2 : FVec F S_ .f32 := constant S_ .f32 0x7F800000#32
  let main_v10 : FVec F S128x8x256x32 .f32 := broadcastInDim S128x8x256x32 ![] bcast_S_S128x8x256x32 main_cst_2
  let main_v11 : IVec S128x8x256x32 1 := cmpf .olt main_v9 main_v10
  let main_c_3 : IVec S_ 1 := constantI S_ 1 1#1
  let main_v12 : IVec S_ 1 := (fun x v => Host.reduce IntOp.andi x v reducesTo_S128x8x256x32_S_d0_1_2_3 h_S_) main_v11 main_c_3
  let main_v13 : IVec S_ 1 := andi main_v8 main_v12
  let main_v14 : FVec F S1x31x31x2 .f32 := Host.absf main_arg3
  let main_cst_4 : FVec F S_ .f32 := constant S_ .f32 0x7F800000#32
  let main_v15 : FVec F S1x31x31x2 .f32 := broadcastInDim S1x31x31x2 ![] bcast_S_S1x31x31x2 main_cst_4
  let main_v16 : IVec S1x31x31x2 1 := cmpf .olt main_v14 main_v15
  fn_part1 (F := F) main_arg4 main_arg5 main_arg6 main_arg7 main_arg9 main_v13 main_v16
-- ==== Kernel.lean ====
abbrev S128x8x256x32 : Shape := ⟨4, ![128, 8, 256, 32]⟩
abbrev S1x31x31x2 : Shape := ⟨4, ![1, 31, 31, 2]⟩
abbrev S2x512 : Shape := ⟨2, ![2, 512]⟩
abbrev S512 : Shape := ⟨1, ![512]⟩
abbrev S512x8 : Shape := ⟨2, ![512, 8]⟩
abbrev S8x1x1 : Shape := ⟨3, ![8, 1, 1]⟩
abbrev S256x256 : Shape := ⟨2, ![256, 256]⟩
abbrev S64x256x256 : Shape := ⟨3, ![64, 256, 256]⟩
abbrev S961x2 : Shape := ⟨2, ![961, 2]⟩
abbrev S961x512 : Shape := ⟨2, ![961, 512]⟩
abbrev S1x512 : Shape := ⟨2, ![1, 512]⟩
abbrev S_ : Shape := ⟨0, ![]⟩
abbrev S961x8 : Shape := ⟨2, ![961, 8]⟩
abbrev S65536 : Shape := ⟨1, ![65536]⟩
abbrev S65536x1 : Shape := ⟨2, ![65536, 1]⟩
abbrev S65536x8 : Shape := ⟨2, ![65536, 8]⟩
abbrev S256x256x8 : Shape := ⟨3, ![256, 256, 8]⟩
abbrev S8x256x256 : Shape := ⟨3, ![8, 256, 256]⟩
abbrev S128x256x256 : Shape := ⟨3, ![128, 256, 256]⟩
abbrev S4x8x256x32 : Shape := ⟨4, ![4, 8, 256, 32]⟩
abbrev S4x256x256 : Shape := ⟨3, ![4, 256, 256]⟩
abbrev S4x8x256 : Shape := ⟨3, ![4, 8, 256]⟩
abbrev S4x8x256x1 : Shape := ⟨4, ![4, 8, 256, 1]⟩
abbrev S1x8x1x1 : Shape := ⟨4, ![1, 8, 1, 1]⟩
abbrev S32x256x32 : Shape := ⟨3, ![32, 256, 32]⟩
abbrev S32x256x256 : Shape := ⟨3, ![32, 256, 256]⟩
abbrev S4x8x256x256 : Shape := ⟨4, ![4, 8, 256, 256]⟩
abbrev S1x8x256x256 : Shape := ⟨4, ![1, 8, 256, 256]⟩
abbrev S4x1x256x256 : Shape := ⟨4, ![4, 1, 256, 256]⟩
abbrev S4x256x8x32 : Shape := ⟨4, ![4, 256, 8, 32]⟩

abbrev nBuf : Space → Nat
  | .hbm => 47
  | .vmem => 12
  | .smem => 0
  | _ => 0

abbrev bufTy : (tb : Table) → Fin (tcTables nBuf tb) → BufTy
  | .hbm, ⟨0, _⟩ => ⟨S128x8x256x32, .f32⟩
  | .hbm, ⟨1, _⟩ => ⟨S128x8x256x32, .f32⟩
  | .hbm, ⟨2, _⟩ => ⟨S128x8x256x32, .f32⟩
  | .hbm, ⟨3, _⟩ => ⟨S1x31x31x2, .f32⟩
  | .hbm, ⟨4, _⟩ => ⟨S2x512, .f32⟩
  | .hbm, ⟨5, _⟩ => ⟨S512, .f32⟩
  | .hbm, ⟨6, _⟩ => ⟨S512x8, .f32⟩
  | .hbm, ⟨7, _⟩ => ⟨S8x1x1, .f32⟩
  | .hbm, ⟨8, _⟩ => ⟨S256x256, .i32⟩
  | .hbm, ⟨9, _⟩ => ⟨S64x256x256, .f32⟩
  | .hbm, ⟨10, _⟩ => ⟨S961x2, .f32⟩
  | .hbm, ⟨11, _⟩ => ⟨S961x512, .f32⟩
  | .hbm, ⟨12, _⟩ => ⟨S1x512, .f32⟩
  | .hbm, ⟨13, _⟩ => ⟨S961x512, .f32⟩
  | .hbm, ⟨14, _⟩ => ⟨S961x512, .f32⟩
  | .hbm, ⟨15, _⟩ => ⟨S_, .f32⟩
  | .hbm, ⟨16, _⟩ => ⟨S961x512, .f32⟩
  | .hbm, ⟨17, _⟩ => ⟨S961x512, .f32⟩
  | .hbm, ⟨18, _⟩ => ⟨S961x8, .f32⟩
  | .hbm, ⟨19, _⟩ => ⟨S65536, .i32⟩
  | .hbm, ⟨20, _⟩ => ⟨S_, .i32⟩
  | .hbm, ⟨21, _⟩ => ⟨S65536, .i32⟩
  | .hbm, ⟨22, _⟩ => ⟨S65536, .i1⟩
  | .hbm, ⟨23, _⟩ => ⟨S_, .i32⟩
  | .hbm, ⟨24, _⟩ => ⟨S65536, .i32⟩
  | .hbm, ⟨25, _⟩ => ⟨S65536, .i32⟩
  | .hbm, ⟨26, _⟩ => ⟨S65536, .i32⟩
  | .hbm, ⟨27, _⟩ => ⟨S65536x1, .i32⟩
  | .hbm, ⟨28, _⟩ => ⟨S65536x8, .f32⟩
  | .hbm, ⟨29, _⟩ => ⟨S256x256x8, .f32⟩
  | .hbm, ⟨30, _⟩ => ⟨S8x256x256, .f32⟩
  | .hbm, ⟨31, _⟩ => ⟨S8x256x256, .f32⟩
  | .hbm, ⟨32, _⟩ => ⟨S8x256x256, .f32⟩
  | .hbm, ⟨33, _⟩ => ⟨S_, .f32⟩
  | .hbm, ⟨34, _⟩ => ⟨S8x256x256, .f32⟩
  | .hbm, ⟨35, _⟩ => ⟨S8x256x256, .f32⟩
  | .hbm, ⟨36, _⟩ => ⟨S_, .f32⟩
  | .hbm, ⟨37, _⟩ => ⟨S8x256x256, .f32⟩
  | .hbm, ⟨38, _⟩ => ⟨S8x256x256, .f32⟩
  | .hbm, ⟨39, _⟩ => ⟨S_, .f32⟩
  | .hbm, ⟨40, _⟩ => ⟨S8x256x256, .f32⟩
  | .hbm, ⟨41, _⟩ => ⟨S8x256x256, .f32⟩
  | .hbm, ⟨42, _⟩ => ⟨S_, .f32⟩
  | .hbm, ⟨43, _⟩ => ⟨S8x1x1, .f32⟩
  | .hbm, ⟨44, _⟩ => ⟨S8x1x1, .f32⟩
  | .hbm, ⟨45, _⟩ => ⟨S8x1x1, .f32⟩
  | .hbm, ⟨46, _⟩ => ⟨S128x256x256, .f32⟩
  | .local _ .vmem, ⟨0, _⟩ => ⟨S4x8x256x32, .f32⟩
  | .local _ .vmem, ⟨1, _⟩ => ⟨S4x8x256x32, .f32⟩
  | .local _ .vmem, ⟨2, _⟩ => ⟨S4x8x256x32, .f32⟩
  | .local _ .vmem, ⟨3, _⟩ => ⟨S4x8x256x32, .f32⟩
  | .local _ .vmem, ⟨4, _⟩ => ⟨S4x8x256x32, .f32⟩
  | .local _ .vmem, ⟨5, _⟩ => ⟨S4x8x256x32, .f32⟩
  | .local _ .vmem, ⟨6, _⟩ => ⟨S8x256x256, .f32⟩
  | .local _ .vmem, ⟨7, _⟩ => ⟨S4x256x256, .f32⟩
  | .local _ .vmem, ⟨8, _⟩ => ⟨S4x256x256, .f32⟩
  | .local _ .vmem, ⟨9, _⟩ => ⟨S8x1x1, .f32⟩
  | .local _ .vmem, ⟨10, _⟩ => ⟨S4x256x256, .f32⟩
  | .local _ .vmem, ⟨11, _⟩ => ⟨S4x256x256, .f32⟩
  | _, _ => ⟨S128x8x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4x8x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x8x256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S1x31x31x2_S961x2 : S1x31x31x2.ShapeCasts S961x2
  bcast_S512_S1x512_1 : S512.BroadcastsInDim S1x512 (![1] : Fin 1 → Fin S1x512.rank)
  bcast_S1x512_S961x512_0_1 : S1x512.BroadcastsInDim S961x512 (![0, 1] : Fin 2 → Fin S961x512.rank)
  bcast_S_S961x512 : S_.BroadcastsInDim S961x512 (![] : Fin 0 → Fin S961x512.rank)
  shapeCasts_S256x256_S65536 : S256x256.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x8_S256x256x8 : S65536x8.ShapeCasts S256x256x8
  transposes_S256x256x8_S8x256x256_2_0_1 : S256x256x8.Transposes [2, 0, 1] S8x256x256
  bcast_S_S8x256x256 : S_.BroadcastsInDim S8x256x256 (![] : Fin 0 → Fin S8x256x256.rank)
  bcast_S_S8x1x1 : S_.BroadcastsInDim S8x1x1 (![] : Fin 0 → Fin S8x1x1.rank)
  inb_S4x8x256x32_S4x8x256x32_0_0_0_0 : ∀ a, (![0, 0, 0, 0] : Fin 4 → Nat) a + S4x8x256x32.size a ≤ S4x8x256x32.size a
  h_S4x8x256x32 : 0 < S4x8x256x32.numel
  reduces_S4x8x256x32_S4x8x256 : S4x8x256x32.Reduces [3] S4x8x256
  shapeCasts_S4x8x256_S4x8x256x1 : S4x8x256.ShapeCasts S4x8x256x1
  broadcasts_S4x8x256x1_S4x8x256x32 : S4x8x256x1.Broadcasts S4x8x256x32
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  shapeCasts_S8x1x1_S1x8x1x1 : S8x1x1.ShapeCasts S1x8x1x1
  broadcasts_S1x8x1x1_S4x8x256x32 : S1x8x1x1.Broadcasts S4x8x256x32
  shapeCasts_S4x8x256x32_S32x256x32 : S4x8x256x32.ShapeCasts S32x256x32
  shapeCasts_S32x256x256_S4x8x256x256 : S32x256x256.ShapeCasts S4x8x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  inb_S4x256x256_S4x256x256_0_0_0 : ∀ a, (![0, 0, 0] : Fin 3 → Nat) a + S4x256x256.size a ≤ S4x256x256.size a
  h_S4x256x256 : 0 < S4x256x256.numel
  shapeCasts_S8x256x256_S1x8x256x256 : S8x256x256.ShapeCasts S1x8x256x256
  shapeCasts_S4x256x256_S4x1x256x256 : S4x256x256.ShapeCasts S4x1x256x256
  broadcasts_S1x8x256x256_S4x8x256x256 : S1x8x256x256.Broadcasts S4x8x256x256
  broadcasts_S4x1x256x256_S4x8x256x256 : S4x1x256x256.Broadcasts S4x8x256x256
  reduces_S4x8x256x256_S4x8x256 : S4x8x256x256.Reduces [3] S4x8x256
  broadcasts_S4x8x256x1_S4x8x256x256 : S4x8x256x1.Broadcasts S4x8x256x256
  shapeCasts_S4x8x256x256_S32x256x256 : S4x8x256x256.ShapeCasts S32x256x256
  shapeCasts_S32x256x32_S4x8x256x32 : S32x256x32.ShapeCasts S4x8x256x32
  transposes_S4x8x256x32_p0_2_1_3_S4x256x8x32 : S4x8x256x32.Transposes [0, 2, 1, 3] S4x256x8x32
  shapeCasts_S4x256x8x32_S4x256x256 : S4x256x8x32.ShapeCasts S4x256x256
  dot_S961x2_S2x512_S961x512_1_0_0_1_n_n_wf : DotDims.WF S961x2 S2x512 S961x512 [1] [0] [0] [1] [] []
  dot_S961x512_S512x8_S961x8_1_0_0_1_n_n_wf : DotDims.WF S961x512 S512x8 S961x8 [1] [0] [0] [1] [] []
  gather_S961x8_S65536x1_S65536x8_1_0_n_n_0_1_18_wf : GatherDims.WF S961x8 S65536x1 S65536x8 [1] [0] [] [0] [] 1 ![1, 8]
  dot_S32x256x32_S32x256x32_S32x256x256_2_2_1_1_0_0_wf : DotDims.WF S32x256x32 S32x256x32 S32x256x256 [2] [2] [1] [1] [0] [0]
  dot_S32x256x256_S32x256x32_S32x256x32_2_1_1_2_0_0_wf : DotDims.WF S32x256x256 S32x256x32 S32x256x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x256x32.size a ≤ S128x8x256x32.size a
  hwx0_0 : ∀ i : grid0.Coords, EltTy.bits .f32 = 32 ∨ (Rect.block (s := S128x8x256x32) S4x8x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x8x256x32.size a ≤ S128x8x256x32.size a
  hwx0_1 : ∀ i : grid0.Coords, EltTy.bits .f32 = 32 ∨ (Rect.block (s := S128x8x256x32) S4x8x256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x8x256x32.size a ≤ S128x8x256x32.size a
  hwx0_2 : ∀ i : grid0.Coords, EltTy.bits .f32 = 32 ∨ (Rect.block (s := S128x8x256x32) S4x8x256x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S8x256x256.size a
  hwx0_3 : ∀ i : grid0.Coords, EltTy.bits .f32 = 32 ∨ (Rect.block (s := S8x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x256.size a ≤ S64x256x256.size a
  hwx0_4 : ∀ i : grid0.Coords, EltTy.bits .f32 = 32 ∨ (Rect.block (s := S64x256x256) S4x256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1x1.size a ≤ S8x1x1.size a
  hwx0_5 : ∀ i : grid0.Coords, EltTy.bits .f32 = 32 ∨ (Rect.block (s := S8x1x1) S8x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256x256.size a ≤ S128x256x256.size a
  hwx0_6 : ∀ i : grid0.Coords, EltTy.bits .f32 = 32 ∨ (Rect.block (s := S128x256x256) S4x256x256.size (cc0_transform_6 i) (hinb0_6 i)).WholeWords (EltTy.packing .f32)

variable [Facts₀]

def dot_S961x2_S2x512_S961x512_1_0_0_1_n_n : DotDims S961x2 S2x512 S961x512 where
  lhsContracting := [1]
  rhsContracting := [0]
  lhsNonContracting := [0]
  rhsNonContracting := [1]
  lhsBatch := []
  rhsBatch := []
  wf := dot_S961x2_S2x512_S961x512_1_0_0_1_n_n_wf
def dot_S961x512_S512x8_S961x8_1_0_0_1_n_n : DotDims S961x512 S512x8 S961x8 where
  lhsContracting := [1]
  rhsContracting := [0]
  lhsNonContracting := [0]
  rhsNonContracting := [1]
  lhsBatch := []
  rhsBatch := []
  wf := dot_S961x512_S512x8_S961x8_1_0_0_1_n_n_wf
def gather_S961x8_S65536x1_S65536x8_1_0_n_n_0_1_18 : GatherDims S961x8 S65536x1 S65536x8 where
  offsetDims := [1]
  collapsedSliceDims := [0]
  operandBatchingDims := []
  startIndicesBatchingDims := []
  startIndexMap := [0]
  indexVectorDim := 1
  sliceSizes := ![1, 8]
  wf := gather_S961x8_S65536x1_S65536x8_1_0_n_n_0_1_18_wf
def dot_S32x256x32_S32x256x32_S32x256x256_2_2_1_1_0_0 : DotDims S32x256x32 S32x256x32 S32x256x256 where
  lhsContracting := [2]
  rhsContracting := [2]
  lhsNonContracting := [1]
  rhsNonContracting := [1]
  lhsBatch := [0]
  rhsBatch := [0]
  wf := dot_S32x256x32_S32x256x32_S32x256x256_2_2_1_1_0_0_wf
def dot_S32x256x256_S32x256x32_S32x256x32_2_1_1_2_0_0 : DotDims S32x256x256 S32x256x32 S32x256x32 where
  lhsContracting := [2]
  rhsContracting := [1]
  lhsNonContracting := [1]
  rhsNonContracting := [2]
  lhsBatch := [0]
  rhsBatch := [0]
  wf := dot_S32x256x256_S32x256x32_S32x256x32_2_1_1_2_0_0_wf

abbrev win0_0 : Pipeline.Window sig grid0 :=
  Pipeline.Window.ofSpec (Memref.whole main_arg0) S4x8x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x8x256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x8x256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S8x256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S4x256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v27) S8x1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S4x256x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S128x8x256x32 : Shape := ⟨4, ![128, 8, 256, 32]⟩
abbrev S1x31x31x2 : Shape := ⟨4, ![1, 31, 31, 2]⟩
abbrev S2x512 : Shape := ⟨2, ![2, 512]⟩
abbrev S512 : Shape := ⟨1, ![512]⟩
abbrev S512x8 : Shape := ⟨2, ![512, 8]⟩
abbrev S8x1x1 : Shape := ⟨3, ![8, 1, 1]⟩
abbrev S256x256 : Shape := ⟨2, ![256, 256]⟩
abbrev S64x256x256 : Shape := ⟨3, ![64, 256, 256]⟩
abbrev S_ : Shape := ⟨0, ![]⟩
abbrev S128x8x256 : Shape := ⟨3, ![128, 8, 256]⟩
abbrev S128x8x256x1 : Shape := ⟨4, ![128, 8, 256, 1]⟩
abbrev S128x8x256x256 : Shape := ⟨4, ![128, 8, 256, 256]⟩
abbrev S1x8x1x1 : Shape := ⟨4, ![1, 8, 1, 1]⟩
abbrev S961x2 : Shape := ⟨2, ![961, 2]⟩
abbrev S961x512 : Shape := ⟨2, ![961, 512]⟩
abbrev S1x512 : Shape := ⟨2, ![1, 512]⟩
abbrev S961x8 : Shape := ⟨2, ![961, 8]⟩
abbrev S65536 : Shape := ⟨1, ![65536]⟩
abbrev S65536x1 : Shape := ⟨2, ![65536, 1]⟩
abbrev S65536x8 : Shape := ⟨2, ![65536, 8]⟩
abbrev S256x256x8 : Shape := ⟨3, ![256, 256, 8]⟩
abbrev S8x256x256 : Shape := ⟨3, ![8, 256, 256]⟩
abbrev S1x8x256x256 : Shape := ⟨4, ![1, 8, 256, 256]⟩
abbrev S2x64x8x256x256 : Shape := ⟨5, ![2, 64, 8, 256, 256]⟩
abbrev S1x64x1x256x256 : Shape := ⟨5, ![1, 64, 1, 256, 256]⟩
abbrev S128x256x8x32 : Shape := ⟨4, ![128, 256, 8, 32]⟩
abbrev S128x256x256 : Shape := ⟨3, ![128, 256, 256]⟩

abbrev nBuf : Space → Nat
  | .hbm => 97
  | .vmem => 0
  | .smem => 0
  | _ => 0

abbrev bufTy : (tb : Table) → Fin (tcTables nBuf tb) → BufTy
  | .hbm, ⟨0, _⟩ => ⟨S128x8x256x32, .f32⟩
  | .hbm, ⟨1, _⟩ => ⟨S128x8x256x32, .f32⟩
  | .hbm, ⟨2, _⟩ => ⟨S128x8x256x32, .f32⟩
  | .hbm, ⟨3, _⟩ => ⟨S1x31x31x2, .f32⟩
  | .hbm, ⟨4, _⟩ => ⟨S2x512, .f32⟩
  | .hbm, ⟨5, _⟩ => ⟨S512, .f32⟩
  | .hbm, ⟨6, _⟩ => ⟨S512x8, .f32⟩
  | .hbm, ⟨7, _⟩ => ⟨S8x1x1, .f32⟩
  | .hbm, ⟨8, _⟩ => ⟨S256x256, .i32⟩
  | .hbm, ⟨9, _⟩ => ⟨S64x256x256, .f32⟩
  | .hbm, ⟨10, _⟩ => ⟨S128x8x256x32, .f32⟩
  | .hbm, ⟨11, _⟩ => ⟨S_, .f32⟩
  | .hbm, ⟨12, _⟩ => ⟨S128x8x256, .f32⟩
  | .hbm, ⟨13, _⟩ => ⟨S128x8x256x1, .f32⟩
  | .hbm, ⟨14, _⟩ => ⟨S128x8x256x1, .f32⟩
  | .hbm, ⟨15, _⟩ => ⟨S_, .f32⟩
  | .hbm, ⟨16, _⟩ => ⟨S_, .f32⟩
  | .hbm, ⟨17, _⟩ => ⟨S128x8x256x1, .f32⟩
  | .hbm, ⟨18, _⟩ => ⟨S128x8x256x1, .f32⟩
  | .hbm, ⟨19, _⟩ => ⟨S128x8x256x32, .f32⟩
  | .hbm, ⟨20, _⟩ => ⟨S128x8x256x32, .f32⟩
  | .hbm, ⟨21, _⟩ => ⟨S128x8x256x32, .f32⟩
  | .hbm, ⟨22, _⟩ => ⟨S_, .f32⟩
  | .hbm, ⟨23, _⟩ => ⟨S128x8x256, .f32⟩
  | .hbm, ⟨24, _⟩ => ⟨S128x8x256x1, .f32⟩
  | .hbm, ⟨25, _⟩ => ⟨S128x8x256x1, .f32⟩
  | .hbm, ⟨26, _⟩ => ⟨S_, .f32⟩
  | .hbm, ⟨27, _⟩ => ⟨S_, .f32⟩
  | .hbm, ⟨28, _⟩ => ⟨S128x8x256x1, .f32⟩
  | .hbm, ⟨29, _⟩ => ⟨S128x8x256x1, .f32⟩
  | .hbm, ⟨30, _⟩ => ⟨S128x8x256x32, .f32⟩
  | .hbm, ⟨31, _⟩ => ⟨S128x8x256x32, .f32⟩
  | .hbm, ⟨32, _⟩ => ⟨S128x8x256x256, .f32⟩
  | .hbm, ⟨33, _⟩ => ⟨S_, .f32⟩
  | .hbm, ⟨34, _⟩ => ⟨S8x1x1, .f32⟩
  | .hbm, ⟨35, _⟩ => ⟨S8x1x1, .f32⟩
  | .hbm, ⟨36, _⟩ => ⟨S8x1x1, .f32⟩
  | .hbm, ⟨37, _⟩ => ⟨S1x8x1x1, .f32⟩
  | .hbm, ⟨38, _⟩ => ⟨S128x8x256x256, .f32⟩
  | .hbm, ⟨39, _⟩ => ⟨S128x8x256x256, .f32⟩
  | .hbm, ⟨40, _⟩ => ⟨S961x2, .f32⟩
  | .hbm, ⟨41, _⟩ => ⟨S961x512, .f32⟩
  | .hbm, ⟨42, _⟩ => ⟨S1x512, .f32⟩
  | .hbm, ⟨43, _⟩ => ⟨S961x512, .f32⟩
  | .hbm, ⟨44, _⟩ => ⟨S961x512, .f32⟩
  | .hbm, ⟨45, _⟩ => ⟨S_, .f32⟩
  | .hbm, ⟨46, _⟩ => ⟨S961x512, .f32⟩
  | .hbm, ⟨47, _⟩ => ⟨S961x512, .f32⟩
  | .hbm, ⟨48, _⟩ => ⟨S961x8, .f32⟩
  | .hbm, ⟨49, _⟩ => ⟨S65536, .i32⟩
  | .hbm, ⟨50, _⟩ => ⟨S_, .i32⟩
  | .hbm, ⟨51, _⟩ => ⟨S65536, .i32⟩
  | .hbm, ⟨52, _⟩ => ⟨S65536, .i1⟩
  | .hbm, ⟨53, _⟩ => ⟨S_, .i32⟩
  | .hbm, ⟨54, _⟩ => ⟨S65536, .i32⟩
  | .hbm, ⟨55, _⟩ => ⟨S65536, .i32⟩
  | .hbm, ⟨56, _⟩ => ⟨S65536, .i32⟩
  | .hbm, ⟨57, _⟩ => ⟨S65536x1, .i32⟩
  | .hbm, ⟨58, _⟩ => ⟨S65536x8, .f32⟩
  | .hbm, ⟨59, _⟩ => ⟨S256x256x8, .f32⟩
  | .hbm, ⟨60, _⟩ => ⟨S8x256x256, .f32⟩
  | .hbm, ⟨61, _⟩ => ⟨S8x256x256, .f32⟩
  | .hbm, ⟨62, _⟩ => ⟨S8x256x256, .f32⟩
  | .hbm, ⟨63, _⟩ => ⟨S_, .f32⟩
  | .hbm, ⟨64, _⟩ => ⟨S8x256x256, .f32⟩
  | .hbm, ⟨65, _⟩ => ⟨S8x256x256, .f32⟩
  | .hbm, ⟨66, _⟩ => ⟨S_, .f32⟩
  | .hbm, ⟨67, _⟩ => ⟨S8x256x256, .f32⟩
  | .hbm, ⟨68, _⟩ => ⟨S8x256x256, .f32⟩
  | .hbm, ⟨69, _⟩ => ⟨S_, .f32⟩
  | .hbm, ⟨70, _⟩ => ⟨S8x256x256, .f32⟩
  | .hbm, ⟨71, _⟩ => ⟨S8x256x256, .f32⟩
  | .hbm, ⟨72, _⟩ => ⟨S1x8x256x256, .f32⟩
  | .hbm, ⟨73, _⟩ => ⟨S128x8x256x256, .f32⟩
  | .hbm, ⟨74, _⟩ => ⟨S128x8x256x256, .f32⟩
  | .hbm, ⟨75, _⟩ => ⟨S2x64x8x256x256, .f32⟩
  | .hbm, ⟨76, _⟩ => ⟨S1x64x1x256x256, .f32⟩
  | .hbm, ⟨77, _⟩ => ⟨S2x64x8x256x256, .f32⟩
  | .hbm, ⟨78, _⟩ => ⟨S2x64x8x256x256, .f32⟩
  | .hbm, ⟨79, _⟩ => ⟨S128x8x256x256, .f32⟩
  | .hbm, ⟨80, _⟩ => ⟨S_, .f32⟩
  | .hbm, ⟨81, _⟩ => ⟨S128x8x256, .f32⟩
  | .hbm, ⟨82, _⟩ => ⟨S_, .f32⟩
  | .hbm, ⟨83, _⟩ => ⟨S128x8x256, .f32⟩
  | .hbm, ⟨84, _⟩ => ⟨S128x8x256, .f32⟩
  | .hbm, ⟨85, _⟩ => ⟨S128x8x256x1, .f32⟩
  | .hbm, ⟨86, _⟩ => ⟨S128x8x256x256, .f32⟩
  | .hbm, ⟨87, _⟩ => ⟨S128x8x256x256, .f32⟩
  | .hbm, ⟨88, _⟩ => ⟨S128x8x256x256, .f32⟩
  | .hbm, ⟨89, _⟩ => ⟨S_, .f32⟩
  | .hbm, ⟨90, _⟩ => ⟨S128x8x256, .f32⟩
  | .hbm, ⟨91, _⟩ => ⟨S128x8x256x1, .f32⟩
  | .hbm, ⟨92, _⟩ => ⟨S128x8x256x256, .f32⟩
  | .hbm, ⟨93, _⟩ => ⟨S128x8x256x256, .f32⟩
  | .hbm, ⟨94, _⟩ => ⟨S128x8x256x32, .f32⟩
  | .hbm, ⟨95, _⟩ => ⟨S128x256x8x32, .f32⟩
  | .hbm, ⟨96, _⟩ => ⟨S128x256x256, .f32⟩
  | _, _ => ⟨S128x8x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v0 : Ref sig .tc := ⟨.hbm, 14, rfl⟩
abbrev main_cst : Ref sig .tc := ⟨.hbm, 15, rfl⟩
abbrev main_call1_v0 : Ref sig .tc := ⟨.hbm, 16, rfl⟩
abbrev main_call1_v1 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_call2_v0 : Ref sig .tc := ⟨.hbm, 21, rfl⟩
abbrev main_call2_cst : Ref sig .tc := ⟨.hbm, 22, rfl⟩
abbrev main_call2_v1 : Ref sig .tc := ⟨.hbm, 23, rfl⟩
abbrev main_call2_v2 : Ref sig .tc := ⟨.hbm, 24, rfl⟩
abbrev main_v4 : Ref sig .tc := ⟨.hbm, 25, rfl⟩
abbrev main_cst_0 : Ref sig .tc := ⟨.hbm, 26, rfl⟩
abbrev main_call3_v0 : Ref sig .tc := ⟨.hbm, 27, rfl⟩
abbrev main_call3_v1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call4_cst : Ref sig .tc := ⟨.hbm, 45, rfl⟩
abbrev main_call4_v0 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_c : Ref sig .tc := ⟨.hbm, 50, rfl⟩
abbrev main_v23 : Ref sig .tc := ⟨.hbm, 51, rfl⟩
abbrev main_v24 : Ref sig .tc := ⟨.hbm, 52, rfl⟩
abbrev main_c_2 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_3 : Ref sig .tc := ⟨.hbm, 63, rfl⟩
abbrev main_v34 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_v37 : Ref sig .tc := ⟨.hbm, 68, rfl⟩
abbrev main_cst_5 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_6 : Ref sig .tc := ⟨.hbm, 80, rfl⟩
abbrev main_v48 : Ref sig .tc := ⟨.hbm, 81, rfl⟩
abbrev main_cst_7 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_8 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]

class Facts₀ : Prop where
  reducesTo_S128x8x256x32_S128x8x256_d3 : S128x8x256x32.ReducesTo [3] S128x8x256
  h_S_ : 0 < S_.numel
  bcast_S128x8x256_S128x8x256x1_0_1_2 : S128x8x256.BroadcastsInDim S128x8x256x1 (![0, 1, 2] : Fin 3 → Fin S128x8x256x1.rank)
  bcast_S_S128x8x256x1 : S_.BroadcastsInDim S128x8x256x1 (![] : Fin 0 → Fin S128x8x256x1.rank)
  bcast_S128x8x256x1_S128x8x256x32_0_1_2_3 : S128x8x256x1.BroadcastsInDim S128x8x256x32 (![0, 1, 2, 3] : Fin 4 → Fin S128x8x256x32.rank)
  bcast_S_S8x1x1 : S_.BroadcastsInDim S8x1x1 (![] : Fin 0 → Fin S8x1x1.rank)
  bcast_S8x1x1_S1x8x1x1_1_2_3 : S8x1x1.BroadcastsInDim S1x8x1x1 (![1, 2, 3] : Fin 3 → Fin S1x8x1x1.rank)
  bcast_S1x8x1x1_S128x8x256x256_0_1_2_3 : S1x8x1x1.BroadcastsInDim S128x8x256x256 (![0, 1, 2, 3] : Fin 4 → Fin S128x8x256x256.rank)
  shapeCasts_S1x31x31x2_S961x2 : S1x31x31x2.ShapeCasts S961x2
  bcast_S512_S1x512_1 : S512.BroadcastsInDim S1x512 (![1] : Fin 1 → Fin S1x512.rank)
  bcast_S1x512_S961x512_0_1 : S1x512.BroadcastsInDim S961x512 (![0, 1] : Fin 2 → Fin S961x512.rank)
  bcast_S_S961x512 : S_.BroadcastsInDim S961x512 (![] : Fin 0 → Fin S961x512.rank)
  shapeCasts_S256x256_S65536 : S256x256.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  shapeCasts_S65536x8_S256x256x8 : S65536x8.ShapeCasts S256x256x8
  transposes_S256x256x8_S8x256x256_2_0_1 : S256x256x8.Transposes [2, 0, 1] S8x256x256
  bcast_S_S8x256x256 : S_.BroadcastsInDim S8x256x256 (![] : Fin 0 → Fin S8x256x256.rank)
  bcast_S8x256x256_S1x8x256x256_1_2_3 : S8x256x256.BroadcastsInDim S1x8x256x256 (![1, 2, 3] : Fin 3 → Fin S1x8x256x256.rank)
  bcast_S1x8x256x256_S128x8x256x256_0_1_2_3 : S1x8x256x256.BroadcastsInDim S128x8x256x256 (![0, 1, 2, 3] : Fin 4 → Fin S128x8x256x256.rank)
  shapeCasts_S128x8x256x256_S2x64x8x256x256 : S128x8x256x256.ShapeCasts S2x64x8x256x256
  bcast_S64x256x256_S1x64x1x256x256_1_3_4 : S64x256x256.BroadcastsInDim S1x64x1x256x256 (![1, 3, 4] : Fin 3 → Fin S1x64x1x256x256.rank)
  bcast_S1x64x1x256x256_S2x64x8x256x256_0_1_2_3_4 : S1x64x1x256x256.BroadcastsInDim S2x64x8x256x256 (![0, 1, 2, 3, 4] : Fin 5 → Fin S2x64x8x256x256.rank)
  shapeCasts_S2x64x8x256x256_S128x8x256x256 : S2x64x8x256x256.ShapeCasts S128x8x256x256
  reducesTo_S128x8x256x256_S128x8x256_d3 : S128x8x256x256.ReducesTo [3] S128x8x256
  bcast_S_S128x8x256 : S_.BroadcastsInDim S128x8x256 (![] : Fin 0 → Fin S128x8x256.rank)
  bcast_S128x8x256x1_S128x8x256x256_0_1_2_3 : S128x8x256x1.BroadcastsInDim S128x8x256x256 (![0, 1, 2, 3] : Fin 4 → Fin S128x8x256x256.rank)
  transposes_S128x8x256x32_S128x256x8x32_0_2_1_3 : S128x8x256x32.Transposes [0, 2, 1, 3] S128x256x8x32
  shapeCasts_S128x256x8x32_S128x256x256 : S128x256x8x32.ShapeCasts S128x256x256
  dot_S128x8x256x32_S128x8x256x32_S128x8x256x256_3_3_2_2_01_01_wf : DotDims.WF S128x8x256x32 S128x8x256x32 S128x8x256x256 [3] [3] [2] [2] [0, 1] [0, 1]
  dot_S961x2_S2x512_S961x512_1_0_0_1_n_n_wf : DotDims.WF S961x2 S2x512 S961x512 [1] [0] [0] [1] [] []
  dot_S961x512_S512x8_S961x8_1_0_0_1_n_n_wf : DotDims.WF S961x512 S512x8 S961x8 [1] [0] [0] [1] [] []
  gather_S961x8_S65536x1_S65536x8_1_0_n_n_0_1_18_wf : GatherDims.WF S961x8 S65536x1 S65536x8 [1] [0] [] [0] [] 1 ![1, 8]
  dot_S128x8x256x256_S128x8x256x32_S128x8x256x32_3_2_2_3_01_01_wf : DotDims.WF S128x8x256x256 S128x8x256x32 S128x8x256x32 [3] [2] [2] [3] [0, 1] [0, 1]

variable [Facts₀]

def dot_S128x8x256x32_S128x8x256x32_S128x8x256x256_3_3_2_2_01_01 : DotDims S128x8x256x32 S128x8x256x32 S128x8x256x256 where
  lhsContracting := [3]
  rhsContracting := [3]
  lhsNonContracting := [2]
  rhsNonContracting := [2]
  lhsBatch := [0, 1]
  rhsBatch := [0, 1]
  wf := dot_S128x8x256x32_S128x8x256x32_S128x8x256x256_3_3_2_2_01_01_wf
def dot_S961x2_S2x512_S961x512_1_0_0_1_n_n : DotDims S961x2 S2x512 S961x512 where
  lhsContracting := [1]
  rhsContracting := [0]
  lhsNonContracting := [0]
  rhsNonContracting := [1]
  lhsBatch := []
  rhsBatch := []
  wf := dot_S961x2_S2x512_S961x512_1_0_0_1_n_n_wf
def dot_S961x512_S512x8_S961x8_1_0_0_1_n_n : DotDims S961x512 S512x8 S961x8 where
  lhsContracting := [1]
  rhsContracting := [0]
  lhsNonContracting := [0]
  rhsNonContracting := [1]
  lhsBatch := []
  rhsBatch := []
  wf := dot_S961x512_S512x8_S961x8_1_0_0_1_n_n_wf
def gather_S961x8_S65536x1_S65536x8_1_0_n_n_0_1_18 : GatherDims S961x8 S65536x1 S65536x8 where
  offsetDims := [1]
  collapsedSliceDims := [0]
  operandBatchingDims := []
  startIndicesBatchingDims := []
  startIndexMap := [0]
  indexVectorDim := 1
  sliceSizes := ![1, 8]
  wf := gather_S961x8_S65536x1_S65536x8_1_0_n_n_0_1_18_wf
def dot_S128x8x256x256_S128x8x256x32_S128x8x256x32_3_2_2_3_01_01 : DotDims S128x8x256x256 S128x8x256x32 S128x8x256x32 where
  lhsContracting := [3]
  rhsContracting := [2]
  lhsNonContracting := [2]
  rhsNonContracting := [3]
  lhsBatch := [0, 1]
  rhsBatch := [0, 1]
  wf := dot_S128x8x256x256_S128x8x256x32_S128x8x256x32_3_2_2_3_01_01_wf

class Facts : Prop extends Facts₀ where

variable [Facts]
-- ==== Proof.FiniteInputs.lean ====
/-
  The precondition read back: what `finite_inputs` says of four of its arguments.

  The printed predicate is a conjunction, one conjunct per float argument, each of the form
  "every entry x of the argument has |x| < +∞": the entrywise comparison of `max x (-x)` with the
  word 0x7F800000 (which denotes ⊤), reduced by `and` over all axes, the results joined by `and`.
  On the extended reals `max x (-x) < ⊤` excludes x = ⊤ (then max = ⊤) and x = ⊥ (then -x = ⊤),
  so x is a real number. `reals_of_pre` states this for every float argument, `real_of_pre` for arguments 0, 1, 7 and 9.
-/
import proofs.«131204_j3865470566915_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.FiniteInputs

open Idealize.ShloMosaic Cert.Pre_finite_inputs

/-- The f32 word 0x7F800000 (sign 0, exponent all ones, fraction 0) denotes +∞. -/
theorem inf_word : Ideal.ofBits .f32 0x7F800000#32 = (⊤ : EReal) := by
  simp [Ideal.ofBits, Ideal.ieee]

/-- An extended real x with max x (-x) < ⊤ is a real: ⊤ gives max = ⊤, and ⊥ gives -x = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The entry fact: the comparison |x| < (the +∞ word) came out 1, so x is a real. -/
theorem real_of_cmp (x : EReal)
    (h : Ideal.cmp .olt (max x (-x)) (Ideal.ofBits .f32 0x7F800000#32) = 1#1) : ∃ r : ℝ, x = (r : EReal) := by
  rw [inf_word] at h
  refine real_of_abs_lt_top x ?_
  unfold Ideal.cmp at h
  by_contra hn
  simp [hn] at h

/-- The rank-0 result shape has one index. -/
instance : Subsingleton S_.Idx := ⟨fun a b => funext fun d => d.elim0⟩

/-- One conjunct of the predicate, for an argument of any shape: if the `and` over all axes of the
    entrywise comparison |a i| < +∞ is 1, every entry of `a` is a real. -/
theorem real_of_all {s : Shape} {axes : List (Fin s.rank)}
    (hb : S_.BroadcastsInDim s (![] : Fin 0 → Fin s.rank)) (hr : s.ReducesTo axes S_) (hu : 0 < S_.numel)
    (a : FVec Ideal s .f32)
    (h : Host.reduce IntOp.andi
          (cmpf .olt (Host.absf a) (broadcastInDim s ![] hb (constant (F := Ideal) S_ .f32 0x7F800000#32)))
          (constantI S_ 1 1#1) hr hu ValueIdx.ix0 = 1#1)
    (i : s.Idx) : ∃ r : ℝ, a i = (r : EReal) :=
  real_of_cmp (a i) (Host.reduce_andi_all _ _ hr hu ValueIdx.ix0 h i)

/-- THE PRECONDITION DECODED, in full: where `finite_inputs` holds, every entry of every float argument is a real number
    (the integer argument 8 is not constrained). -/
theorem reals_of_pre [Cert.Pre_finite_inputs.Facts]
    (a0 a1 a2 : FVec Ideal S128x8x256x32 .f32) (a3 : FVec Ideal S1x31x31x2 .f32) (a4 : FVec Ideal S2x512 .f32)
    (a5 : FVec Ideal S512 .f32) (a6 : FVec Ideal S512x8 .f32) (a7 : FVec Ideal S8x1x1 .f32) (a8 : IVec S256x256 32)
    (a9 : FVec Ideal S64x256x256 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a9 i = (r : EReal)) := by
  -- the predicate's one word, with the printed chain in view
  have e := congrFun h ValueIdx.ix0
  dsimp only [Cert.Pre_finite_inputs.fn, Cert.Pre_finite_inputs.fn_part1, Cert.Pre_finite_inputs.fn_part2] at e
  -- an `and` of i1 words is 1 exactly when both are: nine conjuncts, one per float argument
  simp only [andi, IntOp.andi_eq_one] at e
  obtain ⟨⟨⟨⟨⟨⟨⟨⟨h0, h1⟩, h2⟩, h3⟩, h4⟩, h5⟩, h6⟩, h7⟩, h9⟩ := e
  exact ⟨real_of_all _ _ _ a0 h0, real_of_all _ _ _ a1 h1, real_of_all _ _ _ a2 h2, real_of_all _ _ _ a3 h3,
    real_of_all _ _ _ a4 h4, real_of_all _ _ _ a5 h5, real_of_all _ _ _ a6 h6, real_of_all _ _ _ a7 h7,
    real_of_all _ _ _ a9 h9⟩

/-- The four arguments whose finiteness the value proof uses: 0, 1, 7 and 9. -/
theorem real_of_pre [Cert.Pre_finite_inputs.Facts]
    (a0 a1 a2 : FVec Ideal S128x8x256x32 .f32) (a3 : FVec Ideal S1x31x31x2 .f32) (a4 : FVec Ideal S2x512 .f32)
    (a5 : FVec Ideal S512 .f32) (a6 : FVec Ideal S512x8 .f32) (a7 : FVec Ideal S8x1x1 .f32) (a8 : IVec S256x256 32)
    (a9 : FVec Ideal S64x256x256 .f32)
    (h : Cert.Pre_finite_inputs.fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a7 i = (r : EReal))
      ∧ (∀ i, ∃ r : ℝ, a9 i = (r : EReal)) :=
  have H := reals_of_pre a0 a1 a2 a3 a4 a5 a6 a7 a8 a9 h
  ⟨H.1, H.2.1, H.2.2.2.2.2.2.2.1, H.2.2.2.2.2.2.2.2⟩

end Cert.FiniteInputs

end
-- ==== Proof.AttnSpec.lean ====
/-
  Windowed cosine attention, one output entry at a time, in the two spellings this certificate compares.

  An output entry is fixed by a batch row, a head, a query position and a channel of the head. Its value is a
  softmax-weighted sum over the key positions `m` of the value entries `v m`; the weight of `m` comes from a logit:
  the scaled cosine of the query row and key row `m` (each row divided by its Euclidean norm, the norm clipped below
  at a small positive constant), plus a position bias, plus a window mask.

  The two spellings differ in three places, none of which matters for real logits:
    * where the per-head scale multiplies — each entry of the normalised query row before the contraction
      (`logitFolded`), or the cosine after it (`logitPlain`);
    * how bias and mask are added — `c + (β + μ)` or `(c + β) + μ`;
    * whether the row maximum is subtracted before the exponential (`softShifted`) or not (`softPlain`).
  Each spelling is kept literal, down to a sum started from a zero word and the order of the operands of a maximum;
  Proof/AttnLaw.lean proves that the two agree.
-/
import Idealize.ShloMosaic.PureOps.Ideal

noncomputable section

namespace Cert.Attn

open Idealize.ShloMosaic
open scoped BigOperators

variable {ι κ : Type} [Fintype ι] [Fintype κ]

/-- The Euclidean norm of a row, clipped below at `eps`: `max (√Σ x²) eps`. -/
def clipNorm (eps : EReal) (x : ι → EReal) : EReal := max (Ideal.sqrt (∑ d, x d * x d)) eps

/-- The same with the sum of squares started from `z` and the clip written first: `max eps (√(z + Σ x²))`. -/
def clipNorm' (z eps : EReal) (x : ι → EReal) : EReal := max eps (Ideal.sqrt (z + ∑ d, x d * x d))

/-- A logit with the scale folded into the normalised query row: `Σ_d (q_d/‖q‖ · s) · (k_d/‖k‖) + (β + μ)`. -/
def logitFolded (eps s : EReal) (q k : ι → EReal) (β μ : EReal) : EReal :=
  (∑ d, (Ideal.div (q d) (clipNorm eps q) * s) * Ideal.div (k d) (clipNorm eps k)) + (β + μ)

/-- A logit with the scale applied to the cosine: `((Σ_d q_d/‖q‖ · k_d/‖k‖) · s + β) + μ`. -/
def logitPlain (z eps s : EReal) (q k : ι → EReal) (β μ : EReal) : EReal :=
  ((∑ d, Ideal.div (q d) (clipNorm' z eps q) * Ideal.div (k d) (clipNorm' z eps k)) * s + β) + μ

/-- Softmax weights of the logits `L` against the values `v`, no shift: `Σ_m (e^{L m} / Σ_j e^{L j}) · v m`. -/
def softPlain (L v : κ → EReal) : EReal :=
  ∑ m, Ideal.div (Ideal.exp (L m)) (∑ j, Ideal.exp (L j)) * v m

/-- The row maximum as a host reduction computes it: the fold of `max` from `ninf`, then `max ninf` once more. -/
def rowMax (ninf : EReal) (L : κ → EReal) : EReal := max ninf ((Finset.univ : Finset κ).fold max ninf L)

/-- Softmax weights with the row maximum subtracted first, the normaliser's sum started from `z`:
    `Σ_m (e^{L m - M} / (z + Σ_j e^{L j - M})) · v m`. -/
def softShifted (z ninf : EReal) (L v : κ → EReal) : EReal :=
  ∑ m, Ideal.div (Ideal.exp (L m - rowMax ninf L)) (z + ∑ j, Ideal.exp (L j - rowMax ninf L)) * v m

end Cert.Attn

end
-- ==== Proof.Relayout.lean ====
/-
  Re-laying a block of attention heads, read at an index.

  The kernel moves between the layouts [4, 8, 256, E] (window, head, position, lane) and [32, 256, E] (the 32 = 4·8
  window–head pairs merged into one batch axis for the matrix unit), gives per-row quantities a trailing unit axis and
  stretches them along the lanes, stretches per-head and per-window planes over the other of the two leading axes, and
  finally swaps head and position and merges (head, channel) into 256 = 8·32 lanes. Each lemma here reads ONE such
  operation at an index given by explicit coordinates: a reshape keeps the row-major position, so the pair (w, h) sits at
  batch entry 8·w + h and the pair (h, c) at lane 32·h + c; a stretch reads the unit axis at 0; a transpose swaps two
  coordinates. They are general in the element type.
-/
import Idealize.ShloMosaic.Lib.Pipeline.Value
import Idealize.ShloMosaic.Lib.ValueIdx
import Idealize.ShloMosaic.PureOps.Ideal.Laws

noncomputable section

namespace Cert.Relayout

open Idealize.ShloMosaic Idealize.ShloMosaic.ValueIdx

variable {α : Type}

/-- [4,8,256,E] merged to [32,256,E]: batch entry `g = 8·w + h` reads (w, h). -/
theorem merge_heads {E : Nat} (x : (⟨4, ![4, 8, 256, E]⟩ : Shape).Idx → α)
    (hc : (⟨4, ![4, 8, 256, E]⟩ : Shape).ShapeCasts ⟨3, ![32, 256, E]⟩)
    (g : Fin 32) (w : Fin 4) (h : Fin 8) (n : Fin 256) (e : Fin E) (hg : g.val = w.val * 8 + h.val) :
    shapeCast ⟨3, ![32, 256, E]⟩ x hc (ix3 g n e) = x (ix4 w h n e) := by
  refine shapeCast_apply x hc _ _ ?_
  rw [Shape.rowMajor_val_four, Shape.rowMajor_val_three]
  show ((w.val * 8 + h.val) * 256 + n.val) * E + e.val = (g.val * 256 + n.val) * E + e.val
  rw [hg]

/-- [32,256,E] split to [4,8,256,E]: (w, h) reads batch entry `8·w + h`. -/
theorem split_heads {E : Nat} (x : (⟨3, ![32, 256, E]⟩ : Shape).Idx → α)
    (hc : (⟨3, ![32, 256, E]⟩ : Shape).ShapeCasts ⟨4, ![4, 8, 256, E]⟩)
    (w : Fin 4) (h : Fin 8) (n : Fin 256) (e : Fin E) :
    shapeCast ⟨4, ![4, 8, 256, E]⟩ x hc (ix4 w h n e) = x (ix3 ⟨w.val * 8 + h.val, by omega⟩ n e) := by
  refine shapeCast_apply x hc _ _ ?_
  rw [Shape.rowMajor_val_four, Shape.rowMajor_val_three]
  rfl

/-- [4,256,8,32] merged to [4,256,256]: lane `32·h + c` reads (h, c). -/
theorem merge_lanes (x : (⟨4, ![4, 256, 8, 32]⟩ : Shape).Idx → α)
    (hc : (⟨4, ![4, 256, 8, 32]⟩ : Shape).ShapeCasts ⟨3, ![4, 256, 256]⟩)
    (w : Fin 4) (n : Fin 256) (h : Fin 8) (c : Fin 32) :
    shapeCast ⟨3, ![4, 256, 256]⟩ x hc (ix3 w n ⟨h.val * 32 + c.val, by omega⟩) = x (ix4 w n h c) := by
  refine shapeCast_apply x hc _ _ ?_
  rw [Shape.rowMajor_val_four, Shape.rowMajor_val_three]
  show ((w.val * 256 + n.val) * 8 + h.val) * 32 + c.val = (w.val * 256 + n.val) * 256 + (h.val * 32 + c.val)
  omega

/-- Head and position swapped: [4,8,256,32] to [4,256,8,32]. -/
theorem swap_head_pos (x : (⟨4, ![4, 8, 256, 32]⟩ : Shape).Idx → α)
    (ht : (⟨4, ![4, 8, 256, 32]⟩ : Shape).Transposes [0, 2, 1, 3] ⟨4, ![4, 256, 8, 32]⟩)
    (w : Fin 4) (n : Fin 256) (h : Fin 8) (c : Fin 32) :
    transpose ⟨4, ![4, 256, 8, 32]⟩ [0, 2, 1, 3] x ht (ix4 w n h c) = x (ix4 w h n c) :=
  transpose_apply _ x ht _ _ (fun b => match b with | ⟨0, _⟩ => rfl | ⟨1, _⟩ => rfl | ⟨2, _⟩ => rfl | ⟨3, _⟩ => rfl)

/-- A per-row quantity [4,8,256] given a trailing unit axis. -/
theorem add_unit_lane (x : (⟨3, ![4, 8, 256]⟩ : Shape).Idx → α)
    (hc : (⟨3, ![4, 8, 256]⟩ : Shape).ShapeCasts ⟨4, ![4, 8, 256, 1]⟩)
    (w : Fin 4) (h : Fin 8) (n : Fin 256) (u : Fin 1) :
    shapeCast ⟨4, ![4, 8, 256, 1]⟩ x hc (ix4 w h n u) = x (ix3 w h n) := by
  refine shapeCast_apply x hc _ _ ?_
  rw [Shape.rowMajor_val_four, Shape.rowMajor_val_three]
  show (w.val * 8 + h.val) * 256 + n.val = ((w.val * 8 + h.val) * 256 + n.val) * 1 + u.val
  have := u.isLt
  omega

/-- A column [4,8,256,1] stretched along E lanes reads lane 0. -/
theorem stretch_lanes {E : Nat} (x : (⟨4, ![4, 8, 256, 1]⟩ : Shape).Idx → α)
    (hb : (⟨4, ![4, 8, 256, 1]⟩ : Shape).Broadcasts ⟨4, ![4, 8, 256, E]⟩)
    (w : Fin 4) (h : Fin 8) (n : Fin 256) (e : Fin E) :
    broadcastTo ⟨4, ![4, 8, 256, E]⟩ x hb (ix4 w h n e) = x (ix4 w h n 0) :=
  broadcastTo_apply x hb _ _ (fun a => match a with
    | ⟨0, _⟩ => by show w.val = if (4 : Nat) = 1 then 0 else w.val; rw [if_neg (by decide)]
    | ⟨1, _⟩ => by show h.val = if (8 : Nat) = 1 then 0 else h.val; rw [if_neg (by decide)]
    | ⟨2, _⟩ => by show n.val = if (256 : Nat) = 1 then 0 else n.val; rw [if_neg (by decide)]
    | ⟨3, _⟩ => by show 0 = if (1 : Nat) = 1 then 0 else e.val; rw [if_pos rfl])

/-- The per-head scale [8,1,1] viewed [1,8,1,1]. -/
theorem lead_unit_811 (x : (⟨3, ![8, 1, 1]⟩ : Shape).Idx → α)
    (hc : (⟨3, ![8, 1, 1]⟩ : Shape).ShapeCasts ⟨4, ![1, 8, 1, 1]⟩)
    (u : Fin 1) (h : Fin 8) (a b : Fin 1) :
    shapeCast ⟨4, ![1, 8, 1, 1]⟩ x hc (ix4 u h a b) = x (ix3 h a b) := by
  refine shapeCast_apply x hc _ _ ?_
  rw [Shape.rowMajor_val_four, Shape.rowMajor_val_three]
  show (h.val * 1 + a.val) * 1 + b.val = (((u.val * 8 + h.val) * 1 + a.val) * 1) + b.val
  have := u.isLt
  omega

/-- [1,8,1,1] stretched over windows, positions and lanes reads the head's one entry. -/
theorem stretch_scale (x : (⟨4, ![1, 8, 1, 1]⟩ : Shape).Idx → α)
    (hb : (⟨4, ![1, 8, 1, 1]⟩ : Shape).Broadcasts ⟨4, ![4, 8, 256, 32]⟩)
    (w : Fin 4) (h : Fin 8) (n : Fin 256) (e : Fin 32) :
    broadcastTo ⟨4, ![4, 8, 256, 32]⟩ x hb (ix4 w h n e) = x (ix4 0 h 0 0) :=
  broadcastTo_apply x hb _ _ (fun a => match a with
    | ⟨0, _⟩ => by show 0 = if (1 : Nat) = 1 then 0 else w.val; rw [if_pos rfl]
    | ⟨1, _⟩ => by show h.val = if (8 : Nat) = 1 then 0 else h.val; rw [if_neg (by decide)]
    | ⟨2, _⟩ => by show 0 = if (1 : Nat) = 1 then 0 else n.val; rw [if_pos rfl]
    | ⟨3, _⟩ => by show 0 = if (1 : Nat) = 1 then 0 else e.val; rw [if_pos rfl])

/-- A per-head plane [8,256,256] viewed [1,8,256,256]. -/
theorem lead_unit_plane (x : (⟨3, ![8, 256, 256]⟩ : Shape).Idx → α)
    (hc : (⟨3, ![8, 256, 256]⟩ : Shape).ShapeCasts ⟨4, ![1, 8, 256, 256]⟩)
    (u : Fin 1) (h : Fin 8) (n m : Fin 256) :
    shapeCast ⟨4, ![1, 8, 256, 256]⟩ x hc (ix4 u h n m) = x (ix3 h n m) := by
  refine shapeCast_apply x hc _ _ ?_
  rw [Shape.rowMajor_val_four, Shape.rowMajor_val_three]
  show (h.val * 256 + n.val) * 256 + m.val = ((u.val * 8 + h.val) * 256 + n.val) * 256 + m.val
  have := u.isLt
  omega

/-- [1,8,256,256] stretched over the 4 windows. -/
theorem stretch_windows (x : (⟨4, ![1, 8, 256, 256]⟩ : Shape).Idx → α)
    (hb : (⟨4, ![1, 8, 256, 256]⟩ : Shape).Broadcasts ⟨4, ![4, 8, 256, 256]⟩)
    (w : Fin 4) (h : Fin 8) (n m : Fin 256) :
    broadcastTo ⟨4, ![4, 8, 256, 256]⟩ x hb (ix4 w h n m) = x (ix4 0 h n m) :=
  broadcastTo_apply x hb _ _ (fun a => match a with
    | ⟨0, _⟩ => by show 0 = if (1 : Nat) = 1 then 0 else w.val; rw [if_pos rfl]
    | ⟨1, _⟩ => by show h.val = if (8 : Nat) = 1 then 0 else h.val; rw [if_neg (by decide)]
    | ⟨2, _⟩ => by show n.val = if (256 : Nat) = 1 then 0 else n.val; rw [if_neg (by decide)]
    | ⟨3, _⟩ => by show m.val = if (256 : Nat) = 1 then 0 else m.val; rw [if_neg (by decide)])

/-- A per-window plane [4,256,256] given a unit head axis. -/
theorem mid_unit_plane (x : (⟨3, ![4, 256, 256]⟩ : Shape).Idx → α)
    (hc : (⟨3, ![4, 256, 256]⟩ : Shape).ShapeCasts ⟨4, ![4, 1, 256, 256]⟩)
    (w : Fin 4) (u : Fin 1) (n m : Fin 256) :
    shapeCast ⟨4, ![4, 1, 256, 256]⟩ x hc (ix4 w u n m) = x (ix3 w n m) := by
  refine shapeCast_apply x hc _ _ ?_
  rw [Shape.rowMajor_val_four, Shape.rowMajor_val_three]
  show (w.val * 256 + n.val) * 256 + m.val = ((w.val * 1 + u.val) * 256 + n.val) * 256 + m.val
  have := u.isLt
  omega

/-- [4,1,256,256] stretched over the 8 heads. -/
theorem stretch_heads (x : (⟨4, ![4, 1, 256, 256]⟩ : Shape).Idx → α)
    (hb : (⟨4, ![4, 1, 256, 256]⟩ : Shape).Broadcasts ⟨4, ![4, 8, 256, 256]⟩)
    (w : Fin 4) (h : Fin 8) (n m : Fin 256) :
    broadcastTo ⟨4, ![4, 8, 256, 256]⟩ x hb (ix4 w h n m) = x (ix4 w 0 n m) :=
  broadcastTo_apply x hb _ _ (fun a => match a with
    | ⟨0, _⟩ => by show w.val = if (4 : Nat) = 1 then 0 else w.val; rw [if_neg (by decide)]
    | ⟨1, _⟩ => by show 0 = if (1 : Nat) = 1 then 0 else h.val; rw [if_pos rfl]
    | ⟨2, _⟩ => by show n.val = if (256 : Nat) = 1 then 0 else n.val; rw [if_neg (by decide)]
    | ⟨3, _⟩ => by show m.val = if (256 : Nat) = 1 then 0 else m.val; rw [if_neg (by decide)])

/-- A sum along the lanes of [4,8,256,E], at the extended reals: entry (w, h, n) is the sum over the lane. -/
theorem lane_sum {E : Nat} (src : FVec Ideal (⟨4, ![4, 8, 256, E]⟩ : Shape) .f32)
    (hr : (⟨4, ![4, 8, 256, E]⟩ : Shape).Reduces [3] ⟨3, ![4, 8, 256]⟩) (hφ : FKind.Formats .f32)
    (hacc : (0x00000000#32 : BitVec 32) = FKind.add.neutral .f32 hφ) (w : Fin 4) (h : Fin 8) (n : Fin 256) :
    multiReduction .add [3] ⟨3, ![4, 8, 256]⟩ src 0x00000000#32 hr hφ hacc (ix3 w h n)
      = ∑ e : Fin E, src (ix4 w h n e) := by
  refine (Ideal.multiReduction_add_single src 0x00000000#32 hr hφ hacc (ix3 w h n)).trans ?_
  refine Finset.sum_congr rfl fun e _ => congrArg src ?_
  funext a
  match a with
  | ⟨0, _⟩ => rfl
  | ⟨1, _⟩ => rfl
  | ⟨2, _⟩ => rfl
  | ⟨3, _⟩ => rfl

end Cert.Relayout

end
-- ==== Proof.KernelEntry.lean ====
/-
  The kernel's block at one entry.

  One grid point holds 4 windows × 8 heads. For window `w`, head `h`, query position `n` and channel `c` the stored
  value at lane `32·h + c` of row `(w, n)` is the softmax over key positions `m` — no row maximum subtracted — of the logit
  `Σ_d (q_d/‖q‖ · s_h) · (k_d/‖k‖) + (bias[h,n,m] + mask[w,n,m])`, weighted against `v[w,h,m,c]`: Proof/AttnSpec.lean's
  `softPlain` of `logitFolded`. The reading goes through the body's two batched matrix products (window–head pairs merged
  into a batch axis of 32), three sums along lanes, and the re-layings of Proof/Relayout.lean.
-/
import proofs.«131204_j3865470566915_2_alg».proof.Proof.Gen.KernelIdeal.Frame
import proofs.«131204_j3865470566915_2_alg».proof.Proof.AttnSpec
import proofs.«131204_j3865470566915_2_alg».proof.Proof.Relayout

noncomputable section

namespace Cert.KernelEntry

open Cert.KernelIdeal Cert.KernelIdeal.Gen Idealize.ShloMosaic Idealize.ShloMosaic.ValueIdx Cert.Relayout
open scoped BigOperators

local notation "Dqk" => dot_S32x256x32_S32x256x32_S32x256x256_2_2_1_1_0_0
local notation "Dpv" => dot_S32x256x256_S32x256x32_S32x256x32_2_1_1_2_0_0

/-! ## The two batched products at an entry -/

theorem qk_lhs0 (i : S32x256x256.Idx) (q : (Dqk).contr.Idx) : ((Dqk).lhsIdx i q 0).val = (i 0).val := by
  unfold DotDims.lhsIdx
  rw [dif_pos (show (0 : Fin S32x256x32.rank) ∈ (Dqk).lhsBatch by decide)]
  rfl
theorem qk_lhs1 (i : S32x256x256.Idx) (q : (Dqk).contr.Idx) : ((Dqk).lhsIdx i q 1).val = (i 1).val := by
  unfold DotDims.lhsIdx
  rw [dif_neg (show ¬(1 : Fin S32x256x32.rank) ∈ (Dqk).lhsBatch by decide), dif_pos (show (1 : Fin S32x256x32.rank) ∈ (Dqk).lhsNonContracting by decide)]
  rfl
theorem qk_lhs2 (i : S32x256x256.Idx) (q : (Dqk).contr.Idx) : ((Dqk).lhsIdx i q 2).val = (q ⟨0, by decide⟩).val :=
  (Dqk).lhsIdx_val_of_single rfl i q
theorem qk_rhs0 (i : S32x256x256.Idx) (q : (Dqk).contr.Idx) : ((Dqk).rhsIdx i q 0).val = (i 0).val := by
  unfold DotDims.rhsIdx
  rw [dif_pos (show (0 : Fin S32x256x32.rank) ∈ (Dqk).rhsBatch by decide)]
  rfl
theorem qk_rhs1 (i : S32x256x256.Idx) (q : (Dqk).contr.Idx) : ((Dqk).rhsIdx i q 1).val = (i 2).val := by
  unfold DotDims.rhsIdx
  rw [dif_neg (show ¬(1 : Fin S32x256x32.rank) ∈ (Dqk).rhsBatch by decide), dif_pos (show (1 : Fin S32x256x32.rank) ∈ (Dqk).rhsNonContracting by decide)]
  rfl
theorem qk_rhs2 (i : S32x256x256.Idx) (q : (Dqk).contr.Idx) : ((Dqk).rhsIdx i q 2).val = (q ⟨0, by decide⟩).val :=
  (Dqk).rhsIdx_val_of_single rfl i q

/-- Scores: batch entry `g`, query `n`, key `m` is the dot product of query row `n` and key row `m` of that batch entry. -/
theorem qk_entry (l r : FVec Ideal S32x256x32 .f32) (g : Fin 32) (n m : Fin 256) :
    matmul Dqk none l r (constant S32x256x256 .f32 0x00000000#32) (ix3 g n m)
      = ∑ d : Fin 32, l (ix3 g n d) * r (ix3 g m d) := by
  simp only [matmul]
  rw [Ideal.matmul_constant_zero_apply, ← Equiv.sum_comp (contrEquiv1 Dqk 32 rfl rfl).symm]
  refine Finset.sum_congr rfl fun k _ => ?_
  have hk := contrEquiv1_symm_val Dqk 32 rfl rfl k
  have el : (Dqk).lhsIdx (ix3 g n m) ((contrEquiv1 Dqk 32 rfl rfl).symm k) = ix3 g n k := funext fun a => Fin.ext (by
    match a with
    | ⟨0, _⟩ => exact qk_lhs0 _ _
    | ⟨1, _⟩ => exact qk_lhs1 _ _
    | ⟨2, _⟩ => exact (qk_lhs2 _ _).trans hk)
  have er : (Dqk).rhsIdx (ix3 g n m) ((contrEquiv1 Dqk 32 rfl rfl).symm k) = ix3 g m k := funext fun a => Fin.ext (by
    match a with
    | ⟨0, _⟩ => exact qk_rhs0 _ _
    | ⟨1, _⟩ => exact qk_rhs1 _ _
    | ⟨2, _⟩ => exact (qk_rhs2 _ _).trans hk)
  rw [el, er]

theorem pv_lhs0 (i : S32x256x32.Idx) (q : (Dpv).contr.Idx) : ((Dpv).lhsIdx i q 0).val = (i 0).val := by
  unfold DotDims.lhsIdx
  rw [dif_pos (show (0 : Fin S32x256x256.rank) ∈ (Dpv).lhsBatch by decide)]
  rfl
theorem pv_lhs1 (i : S32x256x32.Idx) (q : (Dpv).contr.Idx) : ((Dpv).lhsIdx i q 1).val = (i 1).val := by
  unfold DotDims.lhsIdx
  rw [dif_neg (show ¬(1 : Fin S32x256x256.rank) ∈ (Dpv).lhsBatch by decide), dif_pos (show (1 : Fin S32x256x256.rank) ∈ (Dpv).lhsNonContracting by decide)]
  rfl
theorem pv_lhs2 (i : S32x256x32.Idx) (q : (Dpv).contr.Idx) : ((Dpv).lhsIdx i q 2).val = (q ⟨0, by decide⟩).val :=
  (Dpv).lhsIdx_val_of_single rfl i q
theorem pv_rhs0 (i : S32x256x32.Idx) (q : (Dpv).contr.Idx) : ((Dpv).rhsIdx i q 0).val = (i 0).val := by
  unfold DotDims.rhsIdx
  rw [dif_pos (show (0 : Fin S32x256x32.rank) ∈ (Dpv).rhsBatch by decide)]
  rfl
theorem pv_rhs1 (i : S32x256x32.Idx) (q : (Dpv).contr.Idx) : ((Dpv).rhsIdx i q 1).val = (q ⟨0, by decide⟩).val :=
  (Dpv).rhsIdx_val_of_single rfl i q
theorem pv_rhs2 (i : S32x256x32.Idx) (q : (Dpv).contr.Idx) : ((Dpv).rhsIdx i q 2).val = (i 2).val := by
  unfold DotDims.rhsIdx
  rw [dif_neg (show ¬(2 : Fin S32x256x32.rank) ∈ (Dpv).rhsBatch by decide), dif_pos (show (2 : Fin S32x256x32.rank) ∈ (Dpv).rhsNonContracting by decide)]
  rfl

/-- Weighted values: batch entry `g`, query `n`, channel `c` is the sum over keys `m` of weight (n, m) times value (m, c). -/
theorem pv_entry (l : FVec Ideal S32x256x256 .f32) (r : FVec Ideal S32x256x32 .f32) (g : Fin 32) (n : Fin 256) (c : Fin 32) :
    matmul Dpv none l r (constant S32x256x32 .f32 0x00000000#32) (ix3 g n c)
      = ∑ m : Fin 256, l (ix3 g n m) * r (ix3 g m c) := by
  simp only [matmul]
  rw [Ideal.matmul_constant_zero_apply, ← Equiv.sum_comp (contrEquiv1 Dpv 256 rfl rfl).symm]
  refine Finset.sum_congr rfl fun k _ => ?_
  have hk := contrEquiv1_symm_val Dpv 256 rfl rfl k
  have el : (Dpv).lhsIdx (ix3 g n c) ((contrEquiv1 Dpv 256 rfl rfl).symm k) = ix3 g n k := funext fun a => Fin.ext (by
    match a with
    | ⟨0, _⟩ => exact pv_lhs0 _ _
    | ⟨1, _⟩ => exact pv_lhs1 _ _
    | ⟨2, _⟩ => exact (pv_lhs2 _ _).trans hk)
  have er : (Dpv).rhsIdx (ix3 g n c) ((contrEquiv1 Dpv 256 rfl rfl).symm k) = ix3 g k c := funext fun a => Fin.ext (by
    match a with
    | ⟨0, _⟩ => exact pv_rhs0 _ _
    | ⟨1, _⟩ => exact (pv_rhs1 _ _).trans hk
    | ⟨2, _⟩ => exact pv_rhs2 _ _)
  rw [el, er]

/-! ## The body's values at an entry -/

/-- The clip constant of the norms. -/
abbrev epsW : EReal := Ideal.ofBits .f32 0x2B8CBCCC#32

/-- A normalised row entry: `x / max(‖x‖, ε)` at (w, h, n, d), the norm over the lane of row (w, h, n). -/
theorem unit_row_entry (x : Vec Ideal S4x8x256x32 .f32) (hr : S4x8x256x32.Reduces [3] S4x8x256) (hφ : FKind.Formats .f32)
    (hacc : (0x00000000#32 : BitVec 32) = FKind.add.neutral .f32 hφ) (hc : S4x8x256.ShapeCasts S4x8x256x1)
    (hb : S4x8x256x1.Broadcasts S4x8x256x32) (w : Fin 4) (h : Fin 8) (n : Fin 256) (d : Fin 32) :
    divf (F := Ideal) x (broadcastTo S4x8x256x32 (maximumf (F := Ideal) (sqrt (F := Ideal) (shapeCast S4x8x256x1 (multiReduction (F := Ideal) .add [3] S4x8x256 (mulf (F := Ideal) x x) 0x00000000#32 hr hφ hacc) hc))
        (broadcast S4x8x256x1 (Scalar.ofBits (F := Ideal) .f32 0x2B8CBCCC#32))) hb) (ix4 w h n d)
      = Ideal.div (x (ix4 w h n d)) (Cert.Attn.clipNorm epsW (fun d' : Fin 32 => x (ix4 w h n d'))) := by
  refine congrArg (Ideal.div (x (ix4 w h n d))) ?_
  refine (stretch_lanes _ hb w h n d).trans ?_
  unfold Cert.Attn.clipNorm
  refine congrArg₂ max (congrArg Ideal.sqrt ?_) rfl
  refine (add_unit_lane _ hc w h n 0).trans ?_
  exact lane_sum (mulf (F := Ideal) x x) hr hφ hacc w h n

/-- The scores of the block: window `w`, head `h`, query `n`, key `m`. -/
theorem pay2_at (v0 v1 : Vec Ideal S4x8x256x32 .f32) (v19 : Vec Ideal S8x1x1 .f32) (w : Fin 4) (h : Fin 8) (n m : Fin 256) :
    k0_pay2 v0 v1 v19 (ix4 w h n m)
      = ∑ d : Fin 32, (Ideal.div (v0 (ix4 w h n d)) (Cert.Attn.clipNorm epsW (fun d' : Fin 32 => v0 (ix4 w h n d'))) * v19 (ix3 h 0 0))
          * Ideal.div (v1 (ix4 w h m d)) (Cert.Attn.clipNorm epsW (fun d' : Fin 32 => v1 (ix4 w h m d'))) := by
  unfold k0_pay2
  refine (split_heads _ _ w h n m).trans ?_
  refine (qk_entry _ _ _ n m).trans ?_
  refine Finset.sum_congr rfl fun d _ => ?_
  refine congrArg₂ (· * ·) ?_ ?_
  · refine (merge_heads _ _ _ w h n d rfl).trans ?_
    refine congrArg₂ (· * ·) ?_ ?_
    · exact unit_row_entry v0 _ _ _ _ _ w h n d
    · refine (stretch_scale _ _ w h n d).trans ?_
      refine (lead_unit_811 _ _ 0 h 0 0).trans ?_
      exact congrFun (shapeCast_self v19 _) _
  · refine (merge_heads _ _ _ w h m d rfl).trans ?_
    exact unit_row_entry v1 _ _ _ _ _ w h m d

/-- The bias plane as the body views it. -/
theorem pay3_at (v28 : Vec Ideal S8x256x256 .f32) (u : Fin 1) (h : Fin 8) (n m : Fin 256) :
    k0_pay3 v28 (ix4 u h n m) = v28 (ix3 h n m) := by
  unfold k0_pay3
  refine (lead_unit_plane _ _ u h n m).trans ?_
  exact congrFun (shapeCast_self v28 _) _

/-- The stored value: lane `32·h + c` of row (w, n). -/
theorem pay1_at (v2 : Vec Ideal S4x8x256x32 .f32) (v27 : FVec Ideal S4x8x256x256 .f32) (v30 : Vec Ideal S4x256x256 .f32)
    (v31 : FVec Ideal S1x8x256x256 .f32) (w : Fin 4) (n : Fin 256) (h : Fin 8) (c : Fin 32) :
    k0_pay1 v2 v27 v30 v31 (ix3 w n ⟨h.val * 32 + c.val, by omega⟩)
      = Cert.Attn.softPlain (fun m : Fin 256 => v27 (ix4 w h n m) + (v31 (ix4 0 h n m) + v30 (ix3 w n m)))
          (fun m : Fin 256 => v2 (ix4 w h m c)) := by
  unfold k0_pay1
  refine (merge_lanes _ _ w n h c).trans ?_
  refine (swap_head_pos _ _ w n h c).trans ?_
  refine (split_heads _ _ w h n c).trans ?_
  refine (pv_entry _ _ _ n c).trans ?_
  unfold Cert.Attn.softPlain
  have hL : ∀ j : Fin 256, (addf (F := Ideal) v27 (addf (F := Ideal) (broadcastTo S4x8x256x256 v31 broadcasts_S1x8x256x256_S4x8x256x256)
      (broadcastTo S4x8x256x256 (shapeCast S4x1x256x256 v30 shapeCasts_S4x256x256_S4x1x256x256) broadcasts_S4x1x256x256_S4x8x256x256))) (ix4 w h n j)
      = v27 (ix4 w h n j) + (v31 (ix4 0 h n j) + v30 (ix3 w n j)) := fun j => by
    refine congrArg (v27 (ix4 w h n j) + ·) ?_
    refine congrArg₂ (· + ·) ?_ ?_
    · exact stretch_windows _ _ w h n j
    · exact (stretch_heads _ _ w h n j).trans (mid_unit_plane _ _ w 0 n j)
  refine Finset.sum_congr rfl fun m _ => ?_
  refine congrArg₂ (· * ·) ?_ ?_
  · refine (merge_heads _ _ _ w h n m rfl).trans ?_
    refine congrArg₂ Ideal.div (congrArg Ideal.exp (hL m)) ?_
    refine (stretch_lanes _ _ w h n m).trans ?_
    refine (add_unit_lane _ _ w h n 0).trans ?_
    refine (lane_sum _ _ _ _ w h n).trans ?_
    exact Finset.sum_congr rfl fun j _ => congrArg Ideal.exp (hL j)
  · exact merge_heads _ _ _ w h m c rfl

/-- What one grid point leaves in the output block, at lane `32·h + c` of row (w, n): the softmax-weighted sum of
    `AttnSpec`, over the point's blocks of q, k, v, the bias plane, the point's mask block and the per-head scale. -/
theorem out_at (x0 x1 x2 : Vec Ideal S4x8x256x32 .f32) (x3 : Vec Ideal S8x256x256 .f32) (x4 : Vec Ideal S4x256x256 .f32)
    (x5 : Vec Ideal S8x1x1 .f32) (w : Fin 4) (n : Fin 256) (h : Fin 8) (c : Fin 32) :
    out0_6 x0 x1 x2 x3 x4 x5 (ix3 w n ⟨h.val * 32 + c.val, by omega⟩)
      = Cert.Attn.softPlain (fun m : Fin 256 => Cert.Attn.logitFolded epsW (x5 (ix3 h 0 0))
            (fun d : Fin 32 => x0 (ix4 w h n d)) (fun d : Fin 32 => x1 (ix4 w h m d)) (x3 (ix3 h n m)) (x4 (ix3 w n m)))
          (fun m : Fin 256 => x2 (ix4 w h m c)) := by
  have hz3 : (![0, 0, 0] : Fin 3 → Nat) = fun _ => 0 := funext fun a => by fin_cases a <;> rfl
  have hz4 : (![0, 0, 0, 0] : Fin 4 → Nat) = fun _ => 0 := funext fun a => by fin_cases a <;> rfl
  unfold out0_6
  rw [View.canon_unit_zero hz3]
  simp only [View.ld_unit_zero (S := S4x8x256x32) hz4, View.ld_unit_zero (S := S8x1x1) hz3,
    View.ld_unit_zero (S := S8x256x256) hz3, View.ld_unit_zero (S := S4x256x256) hz3]
  refine (pay1_at x2 _ x4 _ w n h c).trans ?_
  unfold Cert.Attn.softPlain Cert.Attn.logitFolded
  simp only [pay2_at, pay3_at]

end Cert.KernelEntry

end
-- ==== Proof.KernelArray.lean ====
/-
  From the grid points' blocks to the whole output array.

  Grid point `t` has coordinates (chunk, image); its q, k, v and output blocks are the 4 windows starting at row
  `4·(16·image + chunk)` of their arrays, its mask block the 4 windows starting at row `4·chunk` of the 64 masks — the same
  windows reduced mod 64, because `4·(16·image + chunk) + w = 64·image + (4·chunk + w)` —, and bias and scale are whole
  at every point. So what point `t` writes back is block `t` of ONE function of the whole arrays (`wholeK`: entry
  (b, n, 32·h + c) is the attention entry of `AttnSpec` in the folded-scale, unshifted spelling, over batch row `b` and
  mask `b mod 64`); the 32 blocks tile the 128 rows, so the array ends at that function.
-/
import proofs.«131204_j3865470566915_2_alg».proof.Proof.Gen.KernelIdeal.Value
import proofs.«131204_j3865470566915_2_alg».proof.Proof.KernelEntry

set_option maxRecDepth 16384

noncomputable section

namespace Cert.KernelArray

open Cert.KernelIdeal Cert.KernelIdeal.Gen Cert.KernelIdeal.Value Idealize.ShloMosaic Idealize.ShloMosaic.TcCoe Idealize.SL.Sem
open Idealize.ShloMosaic.ValueIdx Cert.KernelEntry
open Idealize.ShloMosaic.Pipeline (Dat)

/-- One output entry from the whole arrays, folded-scale unshifted spelling: batch row `b`, query `n`, head `h`, channel `c`. -/
def entryK (q k v : S128x8x256x32.Idx → EReal) (bias : S8x256x256.Idx → EReal) (mask : S64x256x256.Idx → EReal)
    (sc : S8x1x1.Idx → EReal) (b : Fin 128) (n : Fin 256) (h : Fin 8) (c : Fin 32) : EReal :=
  Cert.Attn.softPlain (fun m : Fin 256 => Cert.Attn.logitFolded epsW (sc (ix3 h 0 0))
      (fun d : Fin 32 => q (ix4 b h n d)) (fun d : Fin 32 => k (ix4 b h m d)) (bias (ix3 h n m))
      (mask (ix3 ⟨b.val % 64, Nat.mod_lt _ (by decide)⟩ n m)))
    (fun m : Fin 256 => v (ix4 b h m c))

/-- The whole output array: lane `l` of row (b, n) is head `l / 32`, channel `l mod 32`. -/
def wholeK (q k v : S128x8x256x32.Idx → EReal) (bias : S8x256x256.Idx → EReal) (mask : S64x256x256.Idx → EReal)
    (sc : S8x1x1.Idx → EReal) : S128x256x256.Idx → EReal := fun i =>
  entryK q k v bias mask sc ⟨(i 0).val, (i 0).isLt⟩ ⟨(i 1).val, (i 1).isLt⟩
    ⟨(i 2).val / 32, by have : (i 2).val < 256 := (i 2).isLt; omega⟩ ⟨(i 2).val % 32, Nat.mod_lt _ (by decide)⟩

theorem wholeK_at (q k v : S128x8x256x32.Idx → EReal) (bias : S8x256x256.Idx → EReal) (mask : S64x256x256.Idx → EReal)
    (sc : S8x1x1.Idx → EReal) (i : S128x256x256.Idx) (b : Fin 128) (n : Fin 256) (h : Fin 8) (c : Fin 32)
    (hb : (i 0).val = b.val) (hn : (i 1).val = n.val) (hl : (i 2).val = h.val * 32 + c.val) :
    wholeK q k v bias mask sc i = entryK q k v bias mask sc b n h c := by
  unfold wholeK
  have e0 : (⟨(i 0).val, (i 0).isLt⟩ : Fin 128) = b := Fin.ext hb
  have e1 : (⟨(i 1).val, (i 1).isLt⟩ : Fin 256) = n := Fin.ext hn
  have e2 : (⟨(i 2).val / 32, by have : (i 2).val < 256 := (i 2).isLt; omega⟩ : Fin 8) = h := Fin.ext (by
    show (i 2).val / 32 = h.val; have := c.isLt; omega)
  have e3 : (⟨(i 2).val % 32, Nat.mod_lt _ (by decide)⟩ : Fin 32) = c := Fin.ext (by
    show (i 2).val % 32 = c.val; have := c.isLt; omega)
  rw [e0, e1, e2, e3]

variable (m : (ℓ : Loc nD τ sig) → Buf (Elt Ideal) ℓ) (ρ : Dev nD → PrngReg)

/-- The printed index maps, decided over the 32 grid points. -/
theorem idx_facts : ∀ t : Fin cfg0.N,
    (win0_0.index t (0 : Fin 4) = win0_6.index t (0 : Fin 3) ∧ win0_0.index t (1 : Fin 4) = 0 ∧ win0_0.index t (2 : Fin 4) = 0 ∧ win0_0.index t (3 : Fin 4) = 0)
    ∧ (win0_1.index t (0 : Fin 4) = win0_6.index t (0 : Fin 3) ∧ win0_1.index t (1 : Fin 4) = 0 ∧ win0_1.index t (2 : Fin 4) = 0 ∧ win0_1.index t (3 : Fin 4) = 0)
    ∧ (win0_2.index t (0 : Fin 4) = win0_6.index t (0 : Fin 3) ∧ win0_2.index t (1 : Fin 4) = 0 ∧ win0_2.index t (2 : Fin 4) = 0 ∧ win0_2.index t (3 : Fin 4) = 0)
    ∧ (win0_3.index t (0 : Fin 3) = 0 ∧ win0_3.index t (1 : Fin 3) = 0 ∧ win0_3.index t (2 : Fin 3) = 0)
    ∧ (win0_4.index t (0 : Fin 3) = win0_6.index t (0 : Fin 3) % 16 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) ≤ 31 ∧ win0_6.index t (1 : Fin 3) = 0 ∧ win0_6.index t (2 : Fin 3) = 0) :=
  (by decide +kernel : ∀ t : Fin grid0.N, _)

/-- Every block of 4 rows is some point's. -/
theorem idx_onto : ∀ q0 : Fin 32, ∃ t : Fin cfg0.N, win0_6.index t = ![q0.val, 0, 0] :=
  (by decide +kernel : ∀ q0 : Fin 32, ∃ t : Fin grid0.N, win0_6.index t = ![q0.val, 0, 0])

/-! ## A point's blocks read off the whole arrays -/

/-- The q block of point `t`: window `w` of the block is batch row `b = 4·(block index) + w`. -/
theorem read_q (c : Dev nD) (t : Fin cfg0.N) (b : Fin 128) (w : Fin 4) (hb : b.val = win0_6.index t (0 : Fin 3) * 4 + w.val)
    (h : Fin 8) (n : Fin 256) (d : Fin 32) :
    iblk m c 0 t (ix4 w h n d) = V m c main_arg0 (ix4 b h n d) := by
  have hf := idx_facts t
  show V m c main_arg0 (((cfg0.win 0).blk t).view.emb (ix4 w h n d)) = _
  refine congrArg (V m c main_arg0) ?_
  funext a; apply Fin.ext
  match a with
  | ⟨0, _⟩ => show win0_0.index t (0 : Fin 4) * 4 + 1 * w.val = b.val; omega
  | ⟨1, _⟩ => show win0_0.index t (1 : Fin 4) * 8 + 1 * h.val = h.val; omega
  | ⟨2, _⟩ => show win0_0.index t (2 : Fin 4) * 256 + 1 * n.val = n.val; omega
  | ⟨3, _⟩ => show win0_0.index t (3 : Fin 4) * 32 + 1 * d.val = d.val; omega

/-- The k block likewise. -/
theorem read_k (c : Dev nD) (t : Fin cfg0.N) (b : Fin 128) (w : Fin 4) (hb : b.val = win0_6.index t (0 : Fin 3) * 4 + w.val)
    (h : Fin 8) (n : Fin 256) (d : Fin 32) :
    iblk m c 1 t (ix4 w h n d) = V m c main_arg1 (ix4 b h n d) := by
  have hf := idx_facts t
  show V m c main_arg1 (((cfg0.win 1).blk t).view.emb (ix4 w h n d)) = _
  refine congrArg (V m c main_arg1) ?_
  funext a; apply Fin.ext
  match a with
  | ⟨0, _⟩ => show win0_1.index t (0 : Fin 4) * 4 + 1 * w.val = b.val; omega
  | ⟨1, _⟩ => show win0_1.index t (1 : Fin 4) * 8 + 1 * h.val = h.val; omega
  | ⟨2, _⟩ => show win0_1.index t (2 : Fin 4) * 256 + 1 * n.val = n.val; omega
  | ⟨3, _⟩ => show win0_1.index t (3 : Fin 4) * 32 + 1 * d.val = d.val; omega

/-- The v block likewise. -/
theorem read_v (c : Dev nD) (t : Fin cfg0.N) (b : Fin 128) (w : Fin 4) (hb : b.val = win0_6.index t (0 : Fin 3) * 4 + w.val)
    (h : Fin 8) (n : Fin 256) (d : Fin 32) :
    iblk m c 2 t (ix4 w h n d) = V m c main_arg2 (ix4 b h n d) := by
  have hf := idx_facts t
  show V m c main_arg2 (((cfg0.win 2).blk t).view.emb (ix4 w h n d)) = _
  refine congrArg (V m c main_arg2) ?_
  funext a; apply Fin.ext
  match a with
  | ⟨0, _⟩ => show win0_2.index t (0 : Fin 4) * 4 + 1 * w.val = b.val; omega
  | ⟨1, _⟩ => show win0_2.index t (1 : Fin 4) * 8 + 1 * h.val = h.val; omega
  | ⟨2, _⟩ => show win0_2.index t (2 : Fin 4) * 256 + 1 * n.val = n.val; omega
  | ⟨3, _⟩ => show win0_2.index t (3 : Fin 4) * 32 + 1 * d.val = d.val; omega

/-- The bias plane is whole at every point. -/
theorem read_bias (c : Dev nD) (t : Fin cfg0.N) (h : Fin 8) (n j : Fin 256) :
    iblk m c 3 t (ix3 h n j) = V m c main_v24 (ix3 h n j) := by
  have hf := idx_facts t
  show V m c main_v24 (((cfg0.win 3).blk t).view.emb (ix3 h n j)) = _
  refine congrArg (V m c main_v24) ?_
  funext a; apply Fin.ext
  match a with
  | ⟨0, _⟩ => show win0_3.index t (0 : Fin 3) * 8 + 1 * h.val = h.val; omega
  | ⟨1, _⟩ => show win0_3.index t (1 : Fin 3) * 256 + 1 * n.val = n.val; omega
  | ⟨2, _⟩ => show win0_3.index t (2 : Fin 3) * 256 + 1 * j.val = j.val; omega

/-- The mask block of point `t`: window `w` of the block is mask `4·(chunk) + w`. -/
theorem read_mask (c : Dev nD) (t : Fin cfg0.N) (mb : Fin 64) (w : Fin 4) (hb : mb.val = win0_4.index t (0 : Fin 3) * 4 + w.val)
    (n j : Fin 256) :
    iblk m c 4 t (ix3 w n j) = V m c main_arg9 (ix3 mb n j) := by
  have hf := idx_facts t
  show V m c main_arg9 (((cfg0.win 4).blk t).view.emb (ix3 w n j)) = _
  refine congrArg (V m c main_arg9) ?_
  funext a; apply Fin.ext
  match a with
  | ⟨0, _⟩ => show win0_4.index t (0 : Fin 3) * 4 + 1 * w.val = mb.val; omega
  | ⟨1, _⟩ => show win0_4.index t (1 : Fin 3) * 256 + 1 * n.val = n.val; omega
  | ⟨2, _⟩ => show win0_4.index t (2 : Fin 3) * 256 + 1 * j.val = j.val; omega

/-- The per-head scale is whole at every point. -/
theorem read_scale (c : Dev nD) (t : Fin cfg0.N) (h : Fin 8) (u v : Fin 1) :
    iblk m c 5 t (ix3 h u v) = V m c main_v27 (ix3 h u v) := by
  have hf := idx_facts t
  show V m c main_v27 (((cfg0.win 5).blk t).view.emb (ix3 h u v)) = _
  refine congrArg (V m c main_v27) ?_
  funext a; apply Fin.ext
  match a with
  | ⟨0, _⟩ => show win0_5.index t (0 : Fin 3) * 8 + 1 * h.val = h.val; omega
  | ⟨1, _⟩ => show win0_5.index t (1 : Fin 3) * 1 + 1 * u.val = u.val; omega
  | ⟨2, _⟩ => show win0_5.index t (2 : Fin 3) * 1 + 1 * v.val = v.val; omega

/-! ## What a point writes back is its block of `wholeK` -/

theorem flushed_eq (c : Dev nD) (t : Fin cfg0.N) :
    (dats m 0 c).flushed 6 t = ((cfg0.win 6).blk t).view.read (Elt Ideal)
      (wholeK (V m c main_arg0) (V m c main_arg1) (V m c main_arg2) (V m c main_v24) (V m c main_arg9) (V m c main_v27)) := by
  rw [flushed6]
  funext y
  obtain ⟨w, n, h, c', rfl⟩ : ∃ (w : Fin 4) (n : Fin 256) (h : Fin 8) (c' : Fin 32),
      y = ix3 w n ⟨h.val * 32 + c'.val, by omega⟩ :=
    ⟨⟨(y 0).val, (y 0).isLt⟩, ⟨(y 1).val, (y 1).isLt⟩,
      ⟨(y 2).val / 32, by have : (y 2).val < 256 := (y 2).isLt; omega⟩, ⟨(y 2).val % 32, Nat.mod_lt _ (by decide)⟩, by
      funext a; apply Fin.ext
      match a with
      | ⟨0, _⟩ => rfl
      | ⟨1, _⟩ => rfl
      | ⟨2, _⟩ => show (y 2).val = (y 2).val / 32 * 32 + (y 2).val % 32; omega⟩
  have hf := idx_facts t
  have hw := w.isLt
  have hc' := c'.isLt
  have hh := h.isLt
  let b : Fin 128 := ⟨win0_6.index t (0 : Fin 3) * 4 + w.val, by omega⟩
  let mb : Fin 64 := ⟨win0_4.index t (0 : Fin 3) * 4 + w.val, by omega⟩
  show out0_6 (iblk m c 0 t) (iblk m c 1 t) (iblk m c 2 t) (iblk m c 3 t) (iblk m c 4 t) (iblk m c 5 t)
      (ix3 w n ⟨h.val * 32 + c'.val, by omega⟩)
    = wholeK (V m c main_arg0) (V m c main_arg1) (V m c main_arg2) (V m c main_v24) (V m c main_arg9) (V m c main_v27)
      (((cfg0.win 6).blk t).view.emb (ix3 w n ⟨h.val * 32 + c'.val, by omega⟩))
  rw [wholeK_at _ _ _ _ _ _ _ b n h c'
    (by show win0_6.index t (0 : Fin 3) * 4 + 1 * w.val = win0_6.index t (0 : Fin 3) * 4 + w.val; omega)
    (by show win0_6.index t (1 : Fin 3) * 256 + 1 * n.val = n.val; omega)
    (by show win0_6.index t (2 : Fin 3) * 256 + 1 * (h.val * 32 + c'.val) = h.val * 32 + c'.val; omega)]
  refine (out_at (iblk m c 0 t) (iblk m c 1 t) (iblk m c 2 t) (iblk m c 3 t) (iblk m c 4 t) (iblk m c 5 t) w n h c').trans ?_
  unfold entryK
  have hmb : (⟨b.val % 64, Nat.mod_lt _ (by decide)⟩ : Fin 64) = mb := Fin.ext (by
    show (win0_6.index t (0 : Fin 3) * 4 + w.val) % 64 = win0_4.index t (0 : Fin 3) * 4 + w.val; omega)
  rw [hmb]
  simp only [read_q m c t b w rfl, read_k m c t b w rfl, read_v m c t b w rfl, read_bias m c t, read_mask m c t mb w rfl,
    read_scale m c t]

/-! ## The blocks tile the array -/

theorem mem_blk (t : Fin cfg0.N) (i : S128x256x256.Idx) :
    i ∈ ((cfg0.win 6).blk t).view.set ↔ ∀ a : Fin 3, win0_6.index t a * S4x256x256.size a ≤ (i a).val
      ∧ (i a).val < win0_6.index t a * S4x256x256.size a + S4x256x256.size a := by
  show i ∈ ((View.whole main_v28).slice (win0_6.rect t)).set ↔ _
  rw [View.set_slice_whole, Rect.mem_set_unit]
  exact Iff.rfl

/-- Row `r` lies in the block of the point whose block index is `r / 4`. -/
theorem cover (i : S128x256x256.Idx) :
    ∃ t : Fin cfg0.N, (cfg0.win 6).flush t = true ∧ i ∈ ((cfg0.win 6).blk t).view.set := by
  have hi0 : (i 0).val < 128 := (i 0).isLt
  have hi1 : (i 1).val < 256 := (i 1).isLt
  have hi2 : (i 2).val < 256 := (i 2).isLt
  obtain ⟨t, ht⟩ := idx_onto ⟨(i 0).val / 4, by omega⟩
  have q0 : win0_6.index t (0 : Fin 3) = (i 0).val / 4 := congrFun ht 0
  have q1 : win0_6.index t (1 : Fin 3) = 0 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 4 ≤ (i 0).val ∧ (i 0).val < win0_6.index t (0 : Fin 3) * 4 + 4; omega
  | ⟨1, _⟩ => show win0_6.index t (1 : Fin 3) * 256 ≤ (i 1).val ∧ (i 1).val < win0_6.index t (1 : Fin 3) * 256 + 256; omega
  | ⟨2, _⟩ => show win0_6.index t (2 : Fin 3) * 256 ≤ (i 2).val ∧ (i 2).val < win0_6.index t (2 : Fin 3) * 256 + 256; omega

/-- The output array after the run. -/
theorem final (c : Dev nD) : (dats m 0 c).arrAt 6 cfg0.N
    = wholeK (V m c main_arg0) (V m c main_arg1) (V m c main_arg2) (V m c main_v24) (V m c main_arg9) (V m c main_v27) :=
  (dats m 0 c).arrAt_eq_of_cover 6 _ (fun t _ => flushed_eq m c t) cover

/-- The kernel's run: the result array at `wholeK` of the arguments, the bias plane and the scale as the host operations
    before the launch leave them; the arguments unchanged. -/
theorem run : θ_run defs (onTc (τ := τ) (main (F := Ideal))) ⟨m, fun _ => 0, ρ⟩ fun r => ∀ c : Dev nD,
      r.2.mem ((c : Thread nD τ).loc main_v28) = wholeK (m ((c : Thread nD τ).loc main_arg0)) (m ((c : Thread nD τ).loc main_arg1))
          (m ((c : Thread nD τ).loc main_arg2)) (V m c main_v24) (m ((c : Thread nD τ).loc main_arg9)) (V m c main_v27)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans ((final m c).trans (by
      rw [V_main_arg0, V_main_arg1, V_main_arg2, V_main_arg9])), (h c).2⟩) (run_blocks m ρ)

end Cert.KernelArray

end
-- ==== Proof.HostGlue.lean ====
/-
  What the host operations before the launch leave in the two buffers the kernel reads besides its arguments: the
  position-bias plane `16·σ(table MLP gathered by the index)` and the per-head scale `exp(min(logit_scale, log 100))`.
  Both programs compute them by the same operations of the same arguments, so they are stated as the reference's own
  stages (`val_main_v39`, `val_main_v11`); nothing inside them is opened.
-/
import proofs.«131204_j3865470566915_2_alg».proof.Proof.Gen.KernelIdeal.Frame
import proofs.«131204_j3865470566915_2_alg».proof.Proof.Gen.ReferenceIdeal.Read
import Idealize.ShloMosaic.Lib.StableHlo.Run

set_option maxRecDepth 16384

noncomputable section

namespace Cert.HostGlue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The per-head scale the region finds. -/
theorem scale_eq (c : Dev nD) :
    (V m c main_v27 : S8x1x1.Idx → EReal)
      = Cert.ReferenceIdeal.Read.val_main_v11 (F := Ideal) (m ((c : Thread nD τ).loc main_arg7)) := by
  dsimp only [Gen.V]
  simp only [Gen.hostOps0, Gen.hostOps0_1, Gen.hostOps0_2, List.flatten_cons, List.flatten_nil, List.append_nil,
    List.cons_append, List.nil_append]
  after_results
  rfl

set_option maxHeartbeats 2000000 in
/-- The bias plane the region finds. -/
theorem bias_eq (c : Dev nD) :
    (V m c main_v24 : S8x256x256.Idx → EReal)
      = Cert.ReferenceIdeal.Read.val_main_v39 (F := Ideal) (m ((c : Thread nD τ).loc main_arg3))
          (m ((c : Thread nD τ).loc main_arg4)) (m ((c : Thread nD τ).loc main_arg5))
          (m ((c : Thread nD τ).loc main_arg6)) (m ((c : Thread nD τ).loc main_arg8)) := by
  dsimp only [Gen.V]
  simp only [Gen.hostOps0, Gen.hostOps0_1, Gen.hostOps0_2, List.flatten_cons, List.flatten_nil, List.append_nil,
    List.cons_append, List.nil_append]
  after_results_simp
  rfl

end Cert.HostGlue

end
-- ==== Proof.LibRealEntries.lean ====
/-
  Real numbers inside the extended reals, for kernels whose inputs are finite: three facts a proof needs once it knows
  that the entries it meets are real numbers.

  * a finite sum of real numbers, each read as an extended real, is the real sum read as an extended real
    (`coe_sum`);
  * the quotient the ideal instance gives two real numbers, the divisor positive, is their real quotient
    (`div_pos_coe`); in particular it is again a real number, and positive when the dividend is;
  * a real number minus itself is zero (`sub_self_of_real`) — on the extended reals `x - x` is zero only for real `x`
    (`⊤ - ⊤ = ⊥`), which is what makes a split such as `x = hi + (x - hi)` collapse.
-/
import Idealize.ShloMosaic.PureOps.Ideal

noncomputable section

namespace Cert.LibRealEntries

open Idealize.ShloMosaic

/-- A sum of reals, over any finite index set, is the real sum. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A real divided by a positive real, at the ideal values, is their real quotient. -/
theorem div_pos_coe {a b : ℝ} (hb : 0 < b) : Ideal.div (a : EReal) (b : EReal) = ((a / b : ℝ) : EReal) := by
  rw [Ideal.div_coe hb.ne', ← EReal.coe_mul]; congr 1; ring

/-- A real minus itself is zero on the extended reals. -/
theorem sub_self_of_real {x : EReal} (hx : ∃ r : ℝ, x = (r : EReal)) : x - x = 0 := by
  obtain ⟨r, rfl⟩ := hx
  rw [← EReal.coe_sub, sub_self, EReal.coe_zero]

end Cert.LibRealEntries

end
-- ==== Proof.AttnLaw.lean ====
/-
  The two spellings of an attention entry (Proof/AttnSpec.lean) agree when the logits' ingredients are real numbers.

  With real query and key rows, a real scale, real bias and mask and a positive real clip, every normalised entry
  `x_d / max(‖x‖, ε)` is a real number, so both logits are (the images of) real numbers and equal the same one:
  `Σ_d (a_d · s) · b_d = (Σ_d a_d · b_d) · s` is distributivity in ℝ, and the two groupings of `c + β + μ` are
  associativity. For real logits `L` the row maximum `M` taken from any start other than `+∞` is a real number, and
  `e^{L m - M} / Σ_j e^{L j - M} = e^{L m} / Σ_j e^{L j}` because `e^{x - M} = e^x / e^M` with `e^M` a nonzero real:
  the shift cancels. None of this survives an infinite entry, which is why the entries are taken real.
-/
import proofs.«131204_j3865470566915_2_alg».proof.Proof.AttnSpec
import proofs.«131204_j3865470566915_2_alg».proof.Proof.LibRealEntries

noncomputable section

namespace Cert.Attn

open Idealize.ShloMosaic Cert.LibRealEntries
open scoped BigOperators

variable {ι κ : Type} [Fintype ι] [Fintype κ]

/-- The clipped norm of a real row, as a real number. -/
def rnorm (e : ℝ) (x : ι → ℝ) : ℝ := max (Real.sqrt (∑ d, x d * x d)) e

/-- The logit of real rows, as a real number: `(Σ_d q_d/‖q‖ · k_d/‖k‖) · s + β + μ`. -/
def rlogit (e s : ℝ) (q k : ι → ℝ) (β μ : ℝ) : ℝ :=
  (∑ d, (q d / rnorm e q) * (k d / rnorm e k)) * s + β + μ

theorem rnorm_pos {e : ℝ} (he : 0 < e) (x : ι → ℝ) : 0 < rnorm e x := lt_max_of_lt_right he

theorem sumsq_coe (x : ι → ℝ) : (∑ d, (x d : EReal) * (x d : EReal)) = ((∑ d, x d * x d : ℝ) : EReal) := by
  rw [← coe_sum]; exact Finset.sum_congr rfl fun d _ => (EReal.coe_mul _ _).symm

theorem sqrt_sumsq_coe (x : ι → ℝ) :
    Ideal.sqrt ((∑ d, x d * x d : ℝ) : EReal) = ((Real.sqrt (∑ d, x d * x d) : ℝ) : EReal) := by
  rw [Ideal.sqrt_coe, if_neg (not_lt.2 (Finset.sum_nonneg fun d _ => mul_self_nonneg _))]

theorem clipNorm_coe (e : ℝ) (x : ι → ℝ) : clipNorm (e : EReal) (fun d => (x d : EReal)) = ((rnorm e x : ℝ) : EReal) := by
  unfold clipNorm rnorm
  rw [sumsq_coe, sqrt_sumsq_coe]
  exact (EReal.coe_strictMono.monotone.map_max).symm

theorem clipNorm'_coe (e : ℝ) (x : ι → ℝ) : clipNorm' 0 (e : EReal) (fun d => (x d : EReal)) = ((rnorm e x : ℝ) : EReal) := by
  unfold clipNorm' rnorm
  rw [zero_add, sumsq_coe, sqrt_sumsq_coe, max_comm]
  exact (EReal.coe_strictMono.monotone.map_max).symm

/-- The folded-scale logit of real data is the real logit. -/
theorem logitFolded_coe {e : ℝ} (he : 0 < e) (s : ℝ) (q k : ι → ℝ) (β μ : ℝ) :
    logitFolded (e : EReal) (s : EReal) (fun d => (q d : EReal)) (fun d => (k d : EReal)) (β : EReal) (μ : EReal)
      = ((rlogit e s q k β μ : ℝ) : EReal) := by
  unfold logitFolded
  rw [clipNorm_coe, clipNorm_coe]
  have hq : ∀ d, Ideal.div (q d : EReal) ((rnorm e q : ℝ) : EReal) = ((q d / rnorm e q : ℝ) : EReal) :=
    fun d => div_pos_coe (rnorm_pos he q)
  have hk : ∀ d, Ideal.div (k d : EReal) ((rnorm e k : ℝ) : EReal) = ((k d / rnorm e k : ℝ) : EReal) :=
    fun d => div_pos_coe (rnorm_pos he k)
  have hterm : ∀ d, ((q d / rnorm e q : ℝ) : EReal) * (s : EReal) * ((k d / rnorm e k : ℝ) : EReal)
      = ((q d / rnorm e q * s * (k d / rnorm e k) : ℝ) : EReal) := fun d => by
    rw [← EReal.coe_mul, ← EReal.coe_mul]
  simp only [hq, hk, hterm]
  rw [coe_sum, ← EReal.coe_add, ← EReal.coe_add]
  congr 1
  unfold rlogit
  have : ∑ d, q d / rnorm e q * s * (k d / rnorm e k) = (∑ d, q d / rnorm e q * (k d / rnorm e k)) * s := by
    rw [Finset.sum_mul]; exact Finset.sum_congr rfl fun d _ => by ring
  rw [this]; ring

/-- The plain logit of real data is the same real logit. -/
theorem logitPlain_coe {e : ℝ} (he : 0 < e) (s : ℝ) (q k : ι → ℝ) (β μ : ℝ) :
    logitPlain 0 (e : EReal) (s : EReal) (fun d => (q d : EReal)) (fun d => (k d : EReal)) (β : EReal) (μ : EReal)
      = ((rlogit e s q k β μ : ℝ) : EReal) := by
  unfold logitPlain
  rw [clipNorm'_coe, clipNorm'_coe]
  have hq : ∀ d, Ideal.div (q d : EReal) ((rnorm e q : ℝ) : EReal) = ((q d / rnorm e q : ℝ) : EReal) :=
    fun d => div_pos_coe (rnorm_pos he q)
  have hk : ∀ d, Ideal.div (k d : EReal) ((rnorm e k : ℝ) : EReal) = ((k d / rnorm e k : ℝ) : EReal) :=
    fun d => div_pos_coe (rnorm_pos he k)
  have hterm : ∀ d, ((q d / rnorm e q : ℝ) : EReal) * ((k d / rnorm e k : ℝ) : EReal)
      = ((q d / rnorm e q * (k d / rnorm e k) : ℝ) : EReal) := fun d => by
    rw [← EReal.coe_mul]
  simp only [hq, hk, hterm]
  rw [coe_sum, ← EReal.coe_mul, ← EReal.coe_add, ← EReal.coe_add]
  rfl

/-- The row maximum of real logits, taken from a start other than `+∞`, is a real number. -/
theorem rowMax_real [Nonempty κ] {ninf : EReal} (hn : ninf ≠ ⊤) (L : κ → ℝ) :
    ∃ M : ℝ, rowMax ninf (fun m => (L m : EReal)) = (M : EReal) := by
  obtain ⟨m0⟩ := ‹Nonempty κ›
  have hbot : rowMax ninf (fun m => (L m : EReal)) ≠ ⊥ := by
    refine ne_of_gt (lt_of_lt_of_le (EReal.bot_lt_coe (L m0)) ?_)
    refine le_trans ?_ (le_max_right _ _)
    exact (Finset.le_fold_max _).2 (Or.inr ⟨m0, Finset.mem_univ _, le_rfl⟩)
  have htop : rowMax ninf (fun m => (L m : EReal)) ≠ ⊤ := by
    refine ne_of_lt (max_lt (lt_top_iff_ne_top.2 hn) ?_)
    exact (Finset.fold_max_lt _).2 ⟨lt_top_iff_ne_top.2 hn, fun x _ => EReal.coe_lt_top _⟩
  exact ⟨_, (EReal.coe_toReal htop hbot).symm⟩

/-- For real logits the shifted softmax is the plain softmax. -/
theorem softShifted_eq_softPlain [Nonempty κ] {ninf : EReal} (hn : ninf ≠ ⊤) (L : κ → ℝ) (v : κ → EReal) :
    softShifted 0 ninf (fun m => (L m : EReal)) v = softPlain (fun m => (L m : EReal)) v := by
  obtain ⟨M, hM⟩ := rowMax_real hn L
  obtain ⟨m0⟩ := ‹Nonempty κ›
  unfold softShifted softPlain
  rw [hM]
  refine Finset.sum_congr rfl fun m _ => ?_
  congr 1
  rw [zero_add]
  have e1 : ∀ j, Ideal.exp ((L j : EReal) - (M : EReal)) = ((Real.exp (L j - M) : ℝ) : EReal) := fun j => by
    rw [← EReal.coe_sub]; rfl
  have e2 : ∀ j, Ideal.exp (L j : EReal) = ((Real.exp (L j) : ℝ) : EReal) := fun j => rfl
  simp only [e1, e2]
  have p1 : 0 < ∑ j, Real.exp (L j - M) :=
    Finset.sum_pos (fun j _ => Real.exp_pos _) ⟨m0, Finset.mem_univ _⟩
  have p2 : 0 < ∑ j, Real.exp (L j) :=
    Finset.sum_pos (fun j _ => Real.exp_pos _) ⟨m0, Finset.mem_univ _⟩
  rw [coe_sum, coe_sum, div_pos_coe p1, div_pos_coe p2]
  congr 1
  simp only [Real.exp_sub]
  rw [← Finset.sum_div]
  field_simp

/-- An attention entry in the two spellings, for real rows, scale, bias and mask, a positive real clip, the sums
    started from zero and the maximum from anything but `+∞`. -/
theorem entry_eq [Nonempty κ] {e : ℝ} (he : 0 < e) (s : ℝ) {ninf : EReal} (hn : ninf ≠ ⊤)
    (q : ι → ℝ) (k : κ → ι → ℝ) (β μ : κ → ℝ) (v : κ → EReal) :
    softShifted 0 ninf (fun m => logitPlain 0 (e : EReal) (s : EReal) (fun d => (q d : EReal))
        (fun d => (k m d : EReal)) (β m : EReal) (μ m : EReal)) v
      = softPlain (fun m => logitFolded (e : EReal) (s : EReal) (fun d => (q d : EReal))
        (fun d => (k m d : EReal)) (β m : EReal) (μ m : EReal)) v := by
  simp only [logitPlain_coe he, logitFolded_coe he]
  exact softShifted_eq_softPlain hn _ v

end Cert.Attn

end
-- ==== Proof.RefEntry.lean ====
/-
  The reference program's result read at one entry.

  The reference computes windowed cosine attention: each query row and key row is divided by its Euclidean norm
  (clipped below at a small positive constant), the rows are contracted, the cosine is scaled per head, a position
  bias and a window mask are added, a softmax with the row maximum subtracted is taken over the key positions, and
  the weights are contracted with the value rows. The result is stored with the head and channel axes merged.

  This module reads the program one operation at a time at a fixed entry — batch row `b`, query position `n`,
  head `h`, channel `dd` — and identifies the value with `Cert.Attn.softShifted` of the logits
  `Cert.Attn.logitPlain`. The position bias and the per-head scale stay opaque stages of the program.
-/
import proofs.«131204_j3865470566915_2_alg».proof.Proof.Gen.ReferenceIdeal.Read
import proofs.«131204_j3865470566915_2_alg».proof.Proof.AttnSpec
import Idealize.ShloMosaic.Lib.ValueIdx
import Idealize.ShloMosaic.PureOps.Ideal.Laws
import Idealize.ShloMosaic.PureOps.Reduce

noncomputable section

namespace Cert.RefEntry

open Cert.ReferenceIdeal Cert.ReferenceIdeal.Gen Cert.ReferenceIdeal.Read Idealize.ShloMosaic Idealize.ShloMosaic.ValueIdx
open scoped BigOperators

local notation "zW" => Ideal.ofBits FTy.f32 0x00000000#32
local notation "epsW" => Ideal.ofBits FTy.f32 0x2B8CBCCC#32
local notation "ninfW" => Ideal.ofBits FTy.f32 0xFF800000#32

variable (x0 x1 x2 : (⟨S128x8x256x32, .f32⟩ : BufTy).Contents (Elt Ideal))
  (x3 : (⟨S1x31x31x2, .f32⟩ : BufTy).Contents (Elt Ideal)) (x4 : (⟨S2x512, .f32⟩ : BufTy).Contents (Elt Ideal))
  (x5 : (⟨S512, .f32⟩ : BufTy).Contents (Elt Ideal)) (x6 : (⟨S512x8, .f32⟩ : BufTy).Contents (Elt Ideal))
  (x7 : (⟨S8x1x1, .f32⟩ : BufTy).Contents (Elt Ideal)) (x8 : (⟨S256x256, .i32⟩ : BufTy).Contents (Elt Ideal))
  (x9 : (⟨S64x256x256, .f32⟩ : BufTy).Contents (Elt Ideal))

/-! ## The clipped norms and the normalised rows -/

/-- The clipped norm of query row `(b, h, n)`. -/
theorem qnorm_at (b : Fin 128) (h : Fin 8) (n : Fin 256) :
    val_main_v1 (F := Ideal) x0 (ix4 b h n (0 : Fin 1)) = Cert.Attn.clipNorm' zW epsW (fun d : Fin 32 => x0 (ix4 b h n d)) := by
  rw [val_main_v1_apply, val_main_call1_v1_apply, val_main_call1_v0_apply, val_main_cst_apply, val_main_v0_apply,
    val_main_call0_v2_apply, val_main_call0_v1_apply, val_main_call0_cst_apply]
  simp only [val_main_call0_v0_apply, Ideal.mulf_def, Ideal.maximumf_def, Ideal.hostUnary_sqrt_def, Ideal.ofBits_def]
  unfold Cert.Attn.clipNorm'
  refine congrArg (fun s => max epsW (Ideal.sqrt (zW + s))) (Finset.sum_congr rfl fun k _ => ?_)
  have e : idx_main_call0_v1 (idx_main_call0_v2 (ix4 b h n (0 : Fin 1))) k = ix4 b h n k :=
    funext fun a => Fin.ext (by match a with | ⟨0, _⟩ => rfl | ⟨1, _⟩ => rfl | ⟨2, _⟩ => rfl | ⟨3, _⟩ => rfl)
  rw [e]

/-- The clipped norm of key row `(b, h, m)`. -/
theorem knorm_at (b : Fin 128) (h : Fin 8) (m : Fin 256) :
    val_main_v5 (F := Ideal) x1 (ix4 b h m (0 : Fin 1)) = Cert.Attn.clipNorm' zW epsW (fun d : Fin 32 => x1 (ix4 b h m d)) := by
  rw [val_main_v5_apply, val_main_call3_v1_apply, val_main_call3_v0_apply, val_main_cst_0_apply, val_main_v4_apply,
    val_main_call2_v2_apply, val_main_call2_v1_apply, val_main_call2_cst_apply]
  simp only [val_main_call2_v0_apply, Ideal.mulf_def, Ideal.maximumf_def, Ideal.hostUnary_sqrt_def, Ideal.ofBits_def]
  unfold Cert.Attn.clipNorm'
  refine congrArg (fun s => max epsW (Ideal.sqrt (zW + s))) (Finset.sum_congr rfl fun k _ => ?_)
  have e : idx_main_call2_v1 (idx_main_call2_v2 (ix4 b h m (0 : Fin 1))) k = ix4 b h m k :=
    funext fun a => Fin.ext (by match a with | ⟨0, _⟩ => rfl | ⟨1, _⟩ => rfl | ⟨2, _⟩ => rfl | ⟨3, _⟩ => rfl)
  rw [e]

/-- An entry of the normalised query row. -/
theorem qn_at (b : Fin 128) (h : Fin 8) (n : Fin 256) (d : Fin 32) :
    val_main_v3 (F := Ideal) x0 (ix4 b h n d)
      = Ideal.div (x0 (ix4 b h n d)) (Cert.Attn.clipNorm' zW epsW (fun d : Fin 32 => x0 (ix4 b h n d))) := by
  rw [val_main_v3_apply, val_main_v2_apply]
  have e : idx_main_v2 (ix4 b h n d) = ix4 b h n (0 : Fin 1) :=
    funext fun a => Fin.ext (by match a with | ⟨0, _⟩ => rfl | ⟨1, _⟩ => rfl | ⟨2, _⟩ => rfl | ⟨3, _⟩ => rfl)
  rw [e, qnorm_at]
  rfl

/-- An entry of the normalised key row. -/
theorem kn_at (b : Fin 128) (h : Fin 8) (m : Fin 256) (d : Fin 32) :
    val_main_v7 (F := Ideal) x1 (ix4 b h m d)
      = Ideal.div (x1 (ix4 b h m d)) (Cert.Attn.clipNorm' zW epsW (fun d : Fin 32 => x1 (ix4 b h m d))) := by
  rw [val_main_v7_apply, val_main_v6_apply]
  have e : idx_main_v6 (ix4 b h m d) = ix4 b h m (0 : Fin 1) :=
    funext fun a => Fin.ext (by match a with | ⟨0, _⟩ => rfl | ⟨1, _⟩ => rfl | ⟨2, _⟩ => rfl | ⟨3, _⟩ => rfl)
  rw [e, knorm_at]
  rfl

/-! ## The logit -/

/-- The cosine of query row `n` and key row `m`. -/
theorem cos_at (b : Fin 128) (h : Fin 8) (n m : Fin 256) :
    val_main_v8 (F := Ideal) x0 x1 (ix4 b h n m)
      = ∑ d : Fin 32, Ideal.div (x0 (ix4 b h n d)) (Cert.Attn.clipNorm' zW epsW (fun d : Fin 32 => x0 (ix4 b h n d)))
          * Ideal.div (x1 (ix4 b h m d)) (Cert.Attn.clipNorm' zW epsW (fun d : Fin 32 => x1 (ix4 b h m d))) := by
  rw [val_main_v8_apply]
  refine Finset.sum_congr rfl fun k _ => ?_
  have el : lidx_main_v8 (ix4 b h n m) k = ix4 b h n k :=
    funext fun a => Fin.ext (by match a with | ⟨0, _⟩ => rfl | ⟨1, _⟩ => rfl | ⟨2, _⟩ => rfl | ⟨3, _⟩ => rfl)
  have er : ridx_main_v8 (ix4 b h n m) k = ix4 b h m k :=
    funext fun a => Fin.ext (by match a with | ⟨0, _⟩ => rfl | ⟨1, _⟩ => rfl | ⟨2, _⟩ => rfl | ⟨3, _⟩ => rfl)
  rw [el, er, qn_at, kn_at]

/-- The per-head scale, broadcast over the batch and the two positions. -/
theorem scale_at (b : Fin 128) (h : Fin 8) (n m : Fin 256) :
    val_main_v13 (F := Ideal) x7 (ix4 b h n m) = val_main_v11 (F := Ideal) x7 (ix3 h (0 : Fin 1) (0 : Fin 1)) := by
  rw [val_main_v13_apply, val_main_v12_apply]
  exact congrArg (val_main_v11 (F := Ideal) x7)
    (funext fun a => Fin.ext (by match a with | ⟨0, _⟩ => rfl | ⟨1, _⟩ => rfl | ⟨2, _⟩ => rfl))

/-- The position bias, broadcast over the batch. -/
theorem bias_at (b : Fin 128) (h : Fin 8) (n m : Fin 256) :
    val_main_v41 (F := Ideal) x3 x4 x5 x6 x8 (ix4 b h n m) = val_main_v39 (F := Ideal) x3 x4 x5 x6 x8 (ix3 h n m) := by
  rw [val_main_v41_apply, val_main_v40_apply]
  exact congrArg (val_main_v39 (F := Ideal) x3 x4 x5 x6 x8)
    (funext fun a => Fin.ext (by match a with | ⟨0, _⟩ => rfl | ⟨1, _⟩ => rfl | ⟨2, _⟩ => rfl))

/-- The scaled cosine plus the position bias. -/
theorem pre_at (b : Fin 128) (h : Fin 8) (n m : Fin 256) :
    val_main_v42 (F := Ideal) x0 x1 x3 x4 x5 x6 x7 x8 (ix4 b h n m)
      = (∑ d : Fin 32, Ideal.div (x0 (ix4 b h n d)) (Cert.Attn.clipNorm' zW epsW (fun d : Fin 32 => x0 (ix4 b h n d)))
            * Ideal.div (x1 (ix4 b h m d)) (Cert.Attn.clipNorm' zW epsW (fun d : Fin 32 => x1 (ix4 b h m d))))
          * val_main_v11 (F := Ideal) x7 (ix3 h (0 : Fin 1) (0 : Fin 1))
        + val_main_v39 (F := Ideal) x3 x4 x5 x6 x8 (ix3 h n m) := by
  rw [val_main_v42_apply, val_main_v14_apply, cos_at, scale_at, bias_at]
  rfl

/-- The reshape of `[128, 8, 256, 256]` to `[2, 64, 8, 256, 256]` splits the batch row into its window group and window. -/
theorem idx47_at (b : Fin 128) (h : Fin 8) (n m : Fin 256) :
    idx_main_v47 (ix4 b h n m) = ix5 (⟨b.val / 64, by omega⟩ : Fin 2) (⟨b.val % 64, by omega⟩ : Fin 64) h n m := by
  have hb := b.isLt; have hh := h.isLt; have hn := n.isLt; have hm := m.isLt
  funext a; apply Fin.ext
  match a with
  | ⟨0, _⟩ => show (((b.val * 8 + h.val) * 256 + n.val) * 256 + m.val) / 33554432 = b.val / 64; omega
  | ⟨1, _⟩ => show (((b.val * 8 + h.val) * 256 + n.val) * 256 + m.val) / 524288 % 64 = b.val % 64; omega
  | ⟨2, _⟩ => show (((b.val * 8 + h.val) * 256 + n.val) * 256 + m.val) / 65536 % 8 = h.val; omega
  | ⟨3, _⟩ => show (((b.val * 8 + h.val) * 256 + n.val) * 256 + m.val) / 256 % 256 = n.val; omega
  | ⟨4, _⟩ => show (((b.val * 8 + h.val) * 256 + n.val) * 256 + m.val) % 256 = m.val; omega

/-- The reshape back merges the window group and the window into the batch row. -/
theorem idx43_at (a : Fin 2) (c : Fin 64) (h : Fin 8) (n m : Fin 256) :
    idx_main_v43 (ix5 a c h n m) = ix4 (⟨a.val * 64 + c.val, by omega⟩ : Fin 128) h n m := by
  have ha := a.isLt; have hc := c.isLt; have hh := h.isLt; have hn := n.isLt; have hm := m.isLt
  funext e; apply Fin.ext
  match e with
  | ⟨0, _⟩ => show ((((a.val * 64 + c.val) * 8 + h.val) * 256 + n.val) * 256 + m.val) / 524288 = a.val * 64 + c.val; omega
  | ⟨1, _⟩ => show ((((a.val * 64 + c.val) * 8 + h.val) * 256 + n.val) * 256 + m.val) / 65536 % 8 = h.val; omega
  | ⟨2, _⟩ => show ((((a.val * 64 + c.val) * 8 + h.val) * 256 + n.val) * 256 + m.val) / 256 % 256 = n.val; omega
  | ⟨3, _⟩ => show ((((a.val * 64 + c.val) * 8 + h.val) * 256 + n.val) * 256 + m.val) % 256 = m.val; omega

/-- The logit of query position `n` against key position `m`: the mask of window `b mod 64` is added through the
    two reshapes. -/
theorem logit_at (b : Fin 128) (h : Fin 8) (n m : Fin 256) :
    val_main_v47 (F := Ideal) x0 x1 x3 x4 x5 x6 x7 x8 x9 (ix4 b h n m)
      = Cert.Attn.logitPlain zW epsW (val_main_v11 (F := Ideal) x7 (ix3 h (0 : Fin 1) (0 : Fin 1)))
          (fun d : Fin 32 => x0 (ix4 b h n d)) (fun d : Fin 32 => x1 (ix4 b h m d))
          (val_main_v39 (F := Ideal) x3 x4 x5 x6 x8 (ix3 h n m))
          (x9 (ix3 (⟨b.val % 64, by omega⟩ : Fin 64) n m)) := by
  rw [val_main_v47_apply, val_main_v46_apply, val_main_v43_apply, val_main_v45_apply, val_main_v44_apply, idx47_at, idx43_at]
  have eb : (⟨(⟨b.val / 64, by omega⟩ : Fin 2).val * 64 + (⟨b.val % 64, by omega⟩ : Fin 64).val, by omega⟩ : Fin 128) = b :=
    Fin.ext (by show b.val / 64 * 64 + b.val % 64 = b.val; omega)
  have em : idx_main_v44 (idx_main_v45 (ix5 (⟨b.val / 64, by omega⟩ : Fin 2) (⟨b.val % 64, by omega⟩ : Fin 64) h n m))
      = ix3 (⟨b.val % 64, by omega⟩ : Fin 64) n m :=
    funext fun a => Fin.ext (by match a with | ⟨0, _⟩ => rfl | ⟨1, _⟩ => rfl | ⟨2, _⟩ => rfl)
  rw [eb, em, pre_at]
  rfl

/-! ## The softmax -/

/-- The logits of query position `n` of head `h` in batch row `b`, as a function of the key position. -/
abbrev logits (b : Fin 128) (h : Fin 8) (n : Fin 256) : Fin 256 → EReal := fun m : Fin 256 =>
  Cert.Attn.logitPlain zW epsW (val_main_v11 (F := Ideal) x7 (ix3 h (0 : Fin 1) (0 : Fin 1)))
    (fun d : Fin 32 => x0 (ix4 b h n d)) (fun d : Fin 32 => x1 (ix4 b h m d))
    (val_main_v39 (F := Ideal) x3 x4 x5 x6 x8 (ix3 h n m))
    (x9 (ix3 (⟨b.val % 64, by omega⟩ : Fin 64) n m))

/-- The reduced index `(b, h, n)` with key position `k` put back is `(b, h, n, k)`. -/
theorem lift_at (hr : S128x8x256x256.Reduces [3] S128x8x256) (b : Fin 128) (h : Fin 8) (n : Fin 256)
    (k : Fin (S128x8x256x256.size 3)) :
    hr.lift (ix3 b h n) k = ix4 b h n (⟨k.val, k.isLt⟩ : Fin 256) := by
  funext c; apply Fin.ext
  match c with
  | ⟨0, _⟩ => rfl
  | ⟨1, _⟩ => rfl
  | ⟨2, _⟩ => rfl
  | ⟨3, _⟩ => rfl

/-- The host's reduction with a maximum body over the key positions, from the word of minus infinity, is the fold of
    `max` over them. -/
theorem hostRowMax (y : FVec Ideal S128x8x256x256 .f32) (b : Fin 128) (h : Fin 8) (n : Fin 256) :
    Host.reduce (FloatOps.maximumf (F := Ideal) (φ := .f32)) y (val_main_cst_6 (F := Ideal)) reducesTo_S128x8x256x256_S128x8x256_d3 h_S_ (ix3 b h n)
      = (Finset.univ : Finset (Fin 256)).fold max ninfW (fun m : Fin 256 => y (ix4 b h n m)) := by
  have hr : S128x8x256x256.Reduces [3] S128x8x256 := by decide
  refine (Host.reduce_eq_fold_single (FloatOps.maximumf (F := Ideal) (φ := .f32)) y _ reducesTo_S128x8x256x256_S128x8x256_d3 hr h_S_ (ix3 b h n)).trans ?_
  have hf : (y ∘ hr.lift (ix3 b h n)) = fun m : Fin 256 => y (ix4 b h n m) :=
    funext fun k => congrArg y (lift_at hr b h n k)
  exact congrArg (fun f => Finset.fold max ninfW f (Finset.univ : Finset (Fin 256))) hf

/-- The row maximum of the logits. -/
theorem rowmax_at (b : Fin 128) (h : Fin 8) (n : Fin 256) :
    val_main_v50 (F := Ideal) x0 x1 x3 x4 x5 x6 x7 x8 x9 (ix3 b h n)
      = Cert.Attn.rowMax ninfW (logits x0 x1 x3 x4 x5 x6 x7 x8 x9 b h n) := by
  rw [val_main_v50_apply, val_main_v49_apply, val_main_cst_7_apply]
  unfold val_main_v48
  rw [hostRowMax]
  simp only [logit_at]
  rfl

/-- The exponential of a logit less the row maximum. -/
theorem exp_at (b : Fin 128) (h : Fin 8) (n m : Fin 256) :
    val_main_v54 (F := Ideal) x0 x1 x3 x4 x5 x6 x7 x8 x9 (ix4 b h n m)
      = Ideal.exp (logits x0 x1 x3 x4 x5 x6 x7 x8 x9 b h n m
          - Cert.Attn.rowMax ninfW (logits x0 x1 x3 x4 x5 x6 x7 x8 x9 b h n)) := by
  rw [val_main_v54_apply, val_main_v53_apply, val_main_v52_apply, val_main_v51_apply]
  have e : idx_main_v51 (idx_main_v52 (ix4 b h n m)) = ix3 b h n :=
    funext fun a => Fin.ext (by match a with | ⟨0, _⟩ => rfl | ⟨1, _⟩ => rfl | ⟨2, _⟩ => rfl)
  rw [e, rowmax_at, logit_at]
  rfl

/-- The softmax normaliser: the sum of the exponentials over the key positions, started from the zero word. -/
theorem den_at (b : Fin 128) (h : Fin 8) (n : Fin 256) :
    val_main_v55 (F := Ideal) x0 x1 x3 x4 x5 x6 x7 x8 x9 (ix3 b h n)
      = zW + ∑ j : Fin 256, Ideal.exp (logits x0 x1 x3 x4 x5 x6 x7 x8 x9 b h n j
          - Cert.Attn.rowMax ninfW (logits x0 x1 x3 x4 x5 x6 x7 x8 x9 b h n)) := by
  rw [val_main_v55_apply, val_main_cst_8_apply]
  refine congrArg (fun s => zW + s) (Finset.sum_congr rfl fun k _ => ?_)
  have e : idx_main_v55 (ix3 b h n) k = ix4 b h n k :=
    funext fun a => Fin.ext (by match a with | ⟨0, _⟩ => rfl | ⟨1, _⟩ => rfl | ⟨2, _⟩ => rfl | ⟨3, _⟩ => rfl)
  rw [e, exp_at]

/-- The softmax weight of key position `m`. -/
theorem weight_at (b : Fin 128) (h : Fin 8) (n m : Fin 256) :
    val_main_v58 (F := Ideal) x0 x1 x3 x4 x5 x6 x7 x8 x9 (ix4 b h n m)
      = Ideal.div
          (Ideal.exp (logits x0 x1 x3 x4 x5 x6 x7 x8 x9 b h n m
            - Cert.Attn.rowMax ninfW (logits x0 x1 x3 x4 x5 x6 x7 x8 x9 b h n)))
          (zW + ∑ j : Fin 256, Ideal.exp (logits x0 x1 x3 x4 x5 x6 x7 x8 x9 b h n j
            - Cert.Attn.rowMax ninfW (logits x0 x1 x3 x4 x5 x6 x7 x8 x9 b h n))) := by
  rw [val_main_v58_apply, val_main_v57_apply, val_main_v56_apply]
  have e : idx_main_v56 (idx_main_v57 (ix4 b h n m)) = ix3 b h n :=
    funext fun a => Fin.ext (by match a with | ⟨0, _⟩ => rfl | ⟨1, _⟩ => rfl | ⟨2, _⟩ => rfl)
  rw [e, den_at, exp_at]
  rfl

/-! ## The output -/

/-- The weights contracted with the value rows, before the final transpose and reshape. -/
theorem out_at (b : Fin 128) (h : Fin 8) (n : Fin 256) (dd : Fin 32) :
    val_main_v59 (F := Ideal) x0 x1 x2 x3 x4 x5 x6 x7 x8 x9 (ix4 b h n dd)
      = Cert.Attn.softShifted zW ninfW (logits x0 x1 x3 x4 x5 x6 x7 x8 x9 b h n) (fun m : Fin 256 => x2 (ix4 b h m dd)) := by
  rw [val_main_v59_apply]
  unfold Cert.Attn.softShifted
  refine Finset.sum_congr rfl fun k _ => ?_
  have el : lidx_main_v59 (ix4 b h n dd) k = ix4 b h n k :=
    funext fun a => Fin.ext (by match a with | ⟨0, _⟩ => rfl | ⟨1, _⟩ => rfl | ⟨2, _⟩ => rfl | ⟨3, _⟩ => rfl)
  have er : ridx_main_v59 (ix4 b h n dd) k = ix4 b h k dd :=
    funext fun a => Fin.ext (by match a with | ⟨0, _⟩ => rfl | ⟨1, _⟩ => rfl | ⟨2, _⟩ => rfl | ⟨3, _⟩ => rfl)
  rw [el, er, weight_at]

/-- The final transpose and reshape: entry `(b, n, h·32 + dd)` of the result is entry `(b, h, n, dd)` of the
    contraction. -/
theorem idx61_at (b : Fin 128) (n : Fin 256) (h : Fin 8) (dd : Fin 32) :
    idx_main_v60 (idx_main_v61 (ix3 b n (⟨h.val * 32 + dd.val, by omega⟩ : Fin 256))) = ix4 b h n dd := by
  have hb := b.isLt; have hh := h.isLt; have hn := n.isLt; have hd := dd.isLt
  funext a; apply Fin.ext
  match a with
  | ⟨0, _⟩ => show ((b.val * 256 + n.val) * 256 + (h.val * 32 + dd.val)) / 65536 = b.val; omega
  | ⟨1, _⟩ => show ((b.val * 256 + n.val) * 256 + (h.val * 32 + dd.val)) / 32 % 8 = h.val; omega
  | ⟨2, _⟩ => show ((b.val * 256 + n.val) * 256 + (h.val * 32 + dd.val)) / 256 % 256 = n.val; omega
  | ⟨3, _⟩ => show ((b.val * 256 + n.val) * 256 + (h.val * 32 + dd.val)) % 32 = dd.val; omega

/-- The reference program's result at entry `(b, n, h·32 + dd)`: the softmax-weighted sum of the value entries of
    channel `dd` of head `h`, with the logits of query position `n`. -/
theorem ref_entry (x0 x1 x2 : (⟨S128x8x256x32, .f32⟩ : BufTy).Contents (Elt Ideal)) (x3 : (⟨S1x31x31x2, .f32⟩ : BufTy).Contents (Elt Ideal)) (x4 : (⟨S2x512, .f32⟩ : BufTy).Contents (Elt Ideal)) (x5 : (⟨S512, .f32⟩ : BufTy).Contents (Elt Ideal)) (x6 : (⟨S512x8, .f32⟩ : BufTy).Contents (Elt Ideal)) (x7 : (⟨S8x1x1, .f32⟩ : BufTy).Contents (Elt Ideal)) (x8 : (⟨S256x256, .i32⟩ : BufTy).Contents (Elt Ideal)) (x9 : (⟨S64x256x256, .f32⟩ : BufTy).Contents (Elt Ideal))
    (b : Fin 128) (n : Fin 256) (h : Fin 8) (dd : Fin 32) :
    val_main_v61 (F := Ideal) x0 x1 x2 x3 x4 x5 x6 x7 x8 x9 (ix3 b n ⟨h.val * 32 + dd.val, by omega⟩)
      = Cert.Attn.softShifted (Ideal.ofBits .f32 0x00000000#32) (Ideal.ofBits .f32 0xFF800000#32)
          (fun m : Fin 256 => Cert.Attn.logitPlain (Ideal.ofBits .f32 0x00000000#32) (Ideal.ofBits .f32 0x2B8CBCCC#32)
              (val_main_v11 (F := Ideal) x7 (ix3 h 0 0))
              (fun d : Fin 32 => x0 (ix4 b h n d)) (fun d : Fin 32 => x1 (ix4 b h m d))
              (val_main_v39 (F := Ideal) x3 x4 x5 x6 x8 (ix3 h n m))
              (x9 (ix3 ⟨b.val % 64, by omega⟩ n m)))
          (fun m : Fin 256 => x2 (ix4 b h m dd)) := by
  rw [val_main_v61_apply, val_main_v60_apply, idx61_at]
  exact out_at x0 x1 x2 x3 x4 x5 x6 x7 x8 x9 b h n dd

end Cert.RefEntry

end
-- ==== Proof.Bridge.lean ====
/-
  The kernel's whole-array function is the reference's result, for finite inputs.

  Entry by entry both are the attention entry of Proof/AttnSpec.lean over the same rows, in the two spellings; they agree
  (Proof/AttnLaw.lean) once the rows of q and k, the scale, the bias and the mask are real numbers and the constants read as
  they should: the clip `9.99999996e-13` a positive real, the sums' start `0`, the maximum's start not `+∞`.
  q, k and the mask are real by the precondition. The scale `exp(min(x, c))` of a real `x` is real whatever the word `c`
  denotes, because `min(x, c) < +∞`. The bias `16 · 1/(1 + e^{-g})` is real for EVERY extended real `g` (at `g = ±∞` it is
  `16` resp. `0`), so nothing is asked of the table network or of the integer index behind it.
-/
import proofs.«131204_j3865470566915_2_alg».proof.Proof.AttnLaw
import proofs.«131204_j3865470566915_2_alg».proof.Proof.KernelArray
import proofs.«131204_j3865470566915_2_alg».proof.Proof.RefEntry

noncomputable section

namespace Cert.Bridge

open Idealize.ShloMosaic Idealize.ShloMosaic.ValueIdx Cert.LibRealEntries
open Cert.ReferenceIdeal Cert.ReferenceIdeal.Read
open scoped BigOperators

/-! ## The constants -/

/-- `1.0`. -/
theorem word_one : Ideal.ofBits .f32 0x3F800000#32 = ((1 : ℝ) : EReal) := by
  simp [Ideal.ofBits, Ideal.ieee, -EReal.coe_mul]; norm_num

/-- `16.0`. -/
theorem word_sixteen : Ideal.ofBits .f32 0x41800000#32 = ((16 : ℝ) : EReal) := by
  simp [Ideal.ofBits, Ideal.ieee, -EReal.coe_mul]; norm_num

/-- The clip of the norms is a positive real number. -/
theorem word_eps : ∃ e : ℝ, 0 < e ∧ Ideal.ofBits .f32 0x2B8CBCCC#32 = (e : EReal) := by
  refine ⟨_, ?_, by simp [Ideal.ofBits, Ideal.ieee, -EReal.coe_mul]; rfl⟩
  positivity

/-- The start of the row maximum is `-∞`, in particular not `+∞`. -/
theorem word_ninf : Ideal.ofBits .f32 0xFF800000#32 ≠ (⊤ : EReal) := by
  simp [Ideal.ofBits, Ideal.ieee]

/-! ## The scale and the bias are real -/

theorem exp_min_real (r : ℝ) (c : EReal) : ∃ s : ℝ, Ideal.exp (min (r : EReal) c) = (s : EReal) := by
  have hlt : min (r : EReal) c ≠ ⊤ := ne_of_lt (lt_of_le_of_lt (min_le_left _ _) (EReal.coe_lt_top r))
  generalize min (r : EReal) c = y at hlt
  induction y using EReal.rec with
  | bot => exact ⟨0, by simp⟩
  | coe x => exact ⟨Real.exp x, rfl⟩
  | top => exact absurd rfl hlt

theorem scaled_logistic_real (a : ℝ) (g : EReal) :
    ∃ r : ℝ, (a : EReal) * Ideal.div ((1 : ℝ) : EReal) (((1 : ℝ) : EReal) + Ideal.exp (-g)) = (r : EReal) := by
  induction g using EReal.rec with
  | bot =>
    refine ⟨0, ?_⟩
    rw [EReal.neg_bot, Ideal.exp_top, EReal.coe_add_top]
    simp [Ideal.div]
  | coe x =>
    refine ⟨a * (1 / (1 + Real.exp (-x))), ?_⟩
    have h1 : Ideal.exp (-(x : EReal)) = ((Real.exp (-x) : ℝ) : EReal) := by rw [← EReal.coe_neg]; rfl
    rw [h1, ← EReal.coe_add, div_pos_coe (by positivity), ← EReal.coe_mul]
  | top =>
    refine ⟨a * (1 / 1), ?_⟩
    rw [EReal.neg_top, Ideal.exp_bot, add_zero, div_pos_coe one_pos, ← EReal.coe_mul]

/-- Every entry of the per-head scale is real when the learned logit scale is. -/
theorem scale_real (x7 : (⟨S8x1x1, .f32⟩ : BufTy).Contents (Elt Ideal)) (h7 : ∀ i, ∃ r : ℝ, x7 i = (r : EReal)) (i : S8x1x1.Idx) :
    ∃ r : ℝ, val_main_v11 (F := Ideal) x7 i = (r : EReal) := by
  obtain ⟨r, hr⟩ := h7 i
  rw [val_main_v11_apply, val_main_v10_apply, hr]
  exact exp_min_real r (val_main_v9 (F := Ideal) i)

/-- Every entry of the bias plane is real, whatever the gathered table holds. -/
theorem bias_real (x3 : (⟨S1x31x31x2, .f32⟩ : BufTy).Contents (Elt Ideal)) (x4 : (⟨S2x512, .f32⟩ : BufTy).Contents (Elt Ideal))
    (x5 : (⟨S512, .f32⟩ : BufTy).Contents (Elt Ideal)) (x6 : (⟨S512x8, .f32⟩ : BufTy).Contents (Elt Ideal))
    (x8 : (⟨S256x256, .i32⟩ : BufTy).Contents (Elt Ideal)) (i : S8x256x256.Idx) :
    ∃ r : ℝ, val_main_v39 (F := Ideal) x3 x4 x5 x6 x8 i = (r : EReal) := by
  rw [val_main_v39_apply, val_main_v38_apply, val_main_cst_5_apply, val_main_v37_apply, val_main_v36_apply,
    val_main_cst_4_apply, val_main_v35_apply, val_main_v34_apply, val_main_cst_3_apply, val_main_v33_apply,
    val_main_v32_apply]
  generalize val_main_v31 (F := Ideal) x3 x4 x5 x6 x8 i = g
  show ∃ r : ℝ, Ideal.ofBits .f32 0x41800000#32 * Ideal.div (Ideal.ofBits .f32 0x3F800000#32)
      (Ideal.ofBits .f32 0x3F800000#32 + Ideal.exp (-g)) = (r : EReal)
  rw [word_one, word_sixteen]
  exact scaled_logistic_real 16 g

/-! ## The two whole-array functions agree -/

theorem whole_eq (x0 x1 x2 : (⟨S128x8x256x32, .f32⟩ : BufTy).Contents (Elt Ideal)) (x3 : (⟨S1x31x31x2, .f32⟩ : BufTy).Contents (Elt Ideal))
    (x4 : (⟨S2x512, .f32⟩ : BufTy).Contents (Elt Ideal)) (x5 : (⟨S512, .f32⟩ : BufTy).Contents (Elt Ideal))
    (x6 : (⟨S512x8, .f32⟩ : BufTy).Contents (Elt Ideal)) (x7 : (⟨S8x1x1, .f32⟩ : BufTy).Contents (Elt Ideal))
    (x8 : (⟨S256x256, .i32⟩ : BufTy).Contents (Elt Ideal)) (x9 : (⟨S64x256x256, .f32⟩ : BufTy).Contents (Elt Ideal))
    (h0 : ∀ i, ∃ r : ℝ, x0 i = (r : EReal)) (h1 : ∀ i, ∃ r : ℝ, x1 i = (r : EReal))
    (h7 : ∀ i, ∃ r : ℝ, x7 i = (r : EReal)) (h9 : ∀ i, ∃ r : ℝ, x9 i = (r : EReal)) :
    val_main_v61 (F := Ideal) x0 x1 x2 x3 x4 x5 x6 x7 x8 x9
      = Cert.KernelArray.wholeK x0 x1 x2 (val_main_v39 (F := Ideal) x3 x4 x5 x6 x8) x9 (val_main_v11 (F := Ideal) x7) := by
  funext i
  obtain ⟨b, n, h, c, rfl⟩ : ∃ (b : Fin 128) (n : Fin 256) (h : Fin 8) (c : Fin 32),
      i = ix3 b n ⟨h.val * 32 + c.val, by omega⟩ :=
    ⟨⟨(i 0).val, (i 0).isLt⟩, ⟨(i 1).val, (i 1).isLt⟩,
      ⟨(i 2).val / 32, by have : (i 2).val < 256 := (i 2).isLt; omega⟩, ⟨(i 2).val % 32, Nat.mod_lt _ (by decide)⟩, by
      funext a; apply Fin.ext
      match a with
      | ⟨0, _⟩ => rfl
      | ⟨1, _⟩ => rfl
      | ⟨2, _⟩ => show (i 2).val = (i 2).val / 32 * 32 + (i 2).val % 32; omega⟩
  rw [Cert.KernelArray.wholeK_at _ _ _ _ _ _ _ b n h c rfl rfl rfl, Cert.RefEntry.ref_entry]
  unfold Cert.KernelArray.entryK Cert.KernelEntry.epsW
  choose q hq using h0
  choose k hk using h1
  choose s hs using scale_real x7 h7
  choose β hβ using bias_real x3 x4 x5 x6 x8
  choose μ hμ using h9
  obtain ⟨e, he, hee⟩ := word_eps
  simp only [hq, hk, hs, hβ, hμ, hee, Ideal.ofBits_zero_f32]
  exact Cert.Attn.entry_eq he (s (ix3 h 0 0)) word_ninf (fun d : Fin 32 => q (ix4 b h n d))
    (fun (m : Fin 256) (d : Fin 32) => k (ix4 b h m d)) (fun m : Fin 256 => β (ix3 h n m))
    (fun m : Fin 256 => μ (ix3 ⟨b.val % 64, Nat.mod_lt _ (by decide)⟩ n m)) (fun m : Fin 256 => x2 (ix4 b h m c))

end Cert.Bridge

end
-- ==== Proof.lean ====
/- Windowed cosine attention with a position bias and a window mask: a fused kernel against its plain reference, over the
   extended reals.

   The kernel normalises q and k rows by their clipped Euclidean norms, folds the per-head scale into the normalised
   query, multiplies out the scores per (window, head), adds bias and mask, takes the softmax WITHOUT subtracting the row
   maximum, multiplies by v, and writes the heads side by side along the lanes; the reference scales after the
   contraction, adds the mask through a reshape by image, and subtracts the row maximum inside its softmax. For finite
   inputs all logits are real numbers, where the two agree entry by entry (Proof/AttnLaw.lean): the scale moves across the
   contraction by distributivity, and the shift by the row maximum cancels between numerator and normaliser. The
   position bias and the scale come from the same host operations in both programs and are never opened; the bias is a real
   number whatever those operations produce.

   The three frames are the generated ones (the reference's frame is its run with the result dropped), and the kernel's
   idealization rewrote nothing. -/
import proofs.«131204_j3865470566915_2_alg».proof.Defs
import proofs.«131204_j3865470566915_2_alg».proof.Proof.Gen.Kernel
import proofs.«131204_j3865470566915_2_alg».proof.Proof.Gen.Kernel.Skeleton
import proofs.«131204_j3865470566915_2_alg».proof.Proof.Gen.Kernel.Launch
import proofs.«131204_j3865470566915_2_alg».proof.Proof.Gen.Kernel.Points
import proofs.«131204_j3865470566915_2_alg».proof.Proof.Gen.Kernel.Frame
import proofs.«131204_j3865470566915_2_alg».proof.Proof.Gen.KernelIdeal
import proofs.«131204_j3865470566915_2_alg».proof.Proof.Gen.KernelIdeal.Skeleton
import proofs.«131204_j3865470566915_2_alg».proof.Proof.Gen.KernelIdeal.Launch
import proofs.«131204_j3865470566915_2_alg».proof.Proof.Gen.KernelIdeal.Points
import proofs.«131204_j3865470566915_2_alg».proof.Proof.Gen.KernelIdeal.Frame
import proofs.«131204_j3865470566915_2_alg».proof.Proof.Gen.ReferenceIdeal
import proofs.«131204_j3865470566915_2_alg».proof.Proof.Gen.Pre_finite_inputs
import proofs.«131204_j3865470566915_2_alg».proof.Proof.Gen.KernelIdeal.Value
import proofs.«131204_j3865470566915_2_alg».proof.Proof.Gen.ReferenceIdeal.Run
import proofs.«131204_j3865470566915_2_alg».proof.Proof.Gen.ReferenceIdeal.Read
import proofs.«131204_j3865470566915_2_alg».proof.Proof.FiniteInputs
import proofs.«131204_j3865470566915_2_alg».proof.Proof.KernelArray
import proofs.«131204_j3865470566915_2_alg».proof.Proof.HostGlue
import proofs.«131204_j3865470566915_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the kernel's whole-array function of the arguments: the kernel's by its blocks
    (Proof/KernelArray.lean), the reference's because its result is that function on finite inputs (Proof/Bridge.lean);
    bias and scale are the same stages of the same arguments on both sides (Proof/HostGlue.lean). -/
theorem algebraic : Cert.algebraic_KernelIdeal_ReferenceIdeal := by
  intro m ρ m' ρ' hpre hagree
  refine ⟨fun c => Cert.KernelArray.wholeK (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (Cert.KernelIdeal.Gen.V m c Cert.KernelIdeal.main_v24)
      (m ((c : Thread Cert.KernelIdeal.nD Cert.KernelIdeal.τ).loc Cert.KernelIdeal.main_arg9))
      (Cert.KernelIdeal.Gen.V m c Cert.KernelIdeal.main_v27), Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h7, h9⟩ := Cert.FiniteInputs.real_of_pre _ _ _ _ _ _ _ _ _ _ (hpre c)
  obtain ⟨a0, a1, a2, a3, a4, a5, a6, a7, a8, a9⟩ := hagree c
  beta_reduce
  rw [Cert.ReferenceIdeal.Read.val_main_v61_eq, a0, a1, a2, a3, a4, a5, a6, a7, a8, a9,
    Cert.HostGlue.bias_eq, Cert.HostGlue.scale_eq]
  exact Cert.Bridge.whole_eq _ _ _ _ _ _ _ _ _ _ h0 h1 h7 h9

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
